-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S128x10 .f32) (main_arg10 : FVec F S10 .f32) (main_v33 : IVec S_ 1) : IVec S_ 1 :=
  let main_v34 : FVec F S128x10 .f32 := Host.absf main_arg9
  let main_cst_12 : FVec F S_ .f32 := constant S_ .f32 0x7F800000#32
  let main_v35 : FVec F S128x10 .f32 := broadcastInDim S128x10 ![] bcast_S_S128x10 main_cst_12
  let main_v36 : IVec S128x10 1 := cmpf .olt main_v34 main_v35
  let main_c_13 : IVec S_ 1 := constantI S_ 1 1#1
  let main_v37 : IVec S_ 1 := (fun x v => Host.reduce IntOp.andi x v reducesTo_S128x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S128 .f32) (main_arg7 : FVec F S128x128 .f32) (main_arg8 : FVec F S128 .f32) (main_arg9 : FVec F S128x10 .f32) (main_arg10 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x600000 32) (main_arg2 : IVec S50000 32) (main_arg3 : FVec F S128x128 .f32) (main_arg4 : FVec F S128 .f32) (main_arg5 : FVec F S128x128 .f32) (main_arg6 : FVec F S128 .f32) (main_arg7 : FVec F S128x128 .f32) (main_arg8 : FVec F S128 .f32) (main_arg9 : FVec F S128x10 .f32) (main_arg10 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S5000x128 : Shape := ⟨2, ![5000, 128]⟩
abbrev S650000x128 : Shape := ⟨2, ![650000, 128]⟩
abbrev S1x128 : Shape := ⟨2, ![1, 128]⟩
abbrev S512x128 : Shape := ⟨2, ![512, 128]⟩
abbrev S50000x1 : Shape := ⟨2, ![50000, 1]⟩
abbrev S512 : Shape := ⟨1, ![512]⟩
abbrev S512x1 : Shape := ⟨2, ![512, 1]⟩
abbrev S1x10 : Shape := ⟨2, ![1, 10]⟩
abbrev S512x10 : Shape := ⟨2, ![512, 10]⟩

abbrev nBuf : Space → Nat
  | .hbm => 129
  | .vmem => 34
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x10, .f32⟩
  | 10 => ⟨S10, .f32⟩
  | 11 => ⟨S1x600000, .i32⟩
  | 12 => ⟨S600000, .i32⟩
  | 13 => ⟨S1x600000, .i32⟩
  | 14 => ⟨S600000, .i32⟩
  | 15 => ⟨S50000, .i32⟩
  | 16 => ⟨S650000, .i32⟩
  | 17 => ⟨S650000, .i32⟩
  | 18 => ⟨S_, .f32⟩
  | 19 => ⟨S650000, .f32⟩
  | 20 => ⟨S_, .f32⟩
  | 21 => ⟨S50000, .f32⟩
  | 22 => ⟨S650000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S50000, .f32⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S650000, .i32⟩
  | 37 => ⟨S650000, .i1⟩
  | 38 => ⟨S_, .i32⟩
  | 39 => ⟨S650000, .i32⟩
  | 40 => ⟨S650000, .i32⟩
  | 41 => ⟨S650000, .i32⟩
  | 42 => ⟨S650000x1, .i32⟩
  | 43 => ⟨S650000, .f32⟩
  | 44 => ⟨S_, .i32⟩
  | 45 => ⟨S650000, .i32⟩
  | 46 => ⟨S650000, .i1⟩
  | 47 => ⟨S_, .i32⟩
  | 48 => ⟨S650000, .i32⟩
  | 49 => ⟨S650000, .i32⟩
  | 50 => ⟨S650000, .i32⟩
  | 51 => ⟨S650000x1, .i32⟩
  | 52 => ⟨S650000, .f32⟩
  | 53 => ⟨S650000, .f32⟩
  | 54 => ⟨S50000x128, .f32⟩
  | 55 => ⟨S_, .i32⟩
  | 56 => ⟨S650000, .i32⟩
  | 57 => ⟨S650000, .i1⟩
  | 58 => ⟨S_, .i32⟩
  | 59 => ⟨S650000, .i32⟩
  | 60 => ⟨S650000, .i32⟩
  | 61 => ⟨S650000, .i32⟩
  | 62 => ⟨S650000x1, .i32⟩
  | 63 => ⟨S650000x128, .f32⟩
  | 64 => ⟨S650000x1, .f32⟩
  | 65 => ⟨S650000x128, .f32⟩
  | 66 => ⟨S650000x128, .f32⟩
  | 67 => ⟨S_, .f32⟩
  | 68 => ⟨S50000x128, .f32⟩
  | 69 => ⟨S650000x1, .i32⟩
  | 70 => ⟨S50000x128, .f32⟩
  | 71 => ⟨S1x128, .f32⟩
  | 72 => ⟨S50000x128, .f32⟩
  | 73 => ⟨S50000x128, .f32⟩
  | 74 => ⟨S_, .i32⟩
  | 75 => ⟨S650000, .i32⟩
  | 76 => ⟨S650000, .i1⟩
  | 77 => ⟨S_, .i32⟩
  | 78 => ⟨S650000, .i32⟩
  | 79 => ⟨S650000, .i32⟩
  | 80 => ⟨S650000, .i32⟩
  | 81 => ⟨S650000x1, .i32⟩
  | 82 => ⟨S650000x128, .f32⟩
  | 83 => ⟨S650000x1, .f32⟩
  | 84 => ⟨S650000x128, .f32⟩
  | 85 => ⟨S650000x128, .f32⟩
  | 86 => ⟨S_, .f32⟩
  | 87 => ⟨S50000x128, .f32⟩
  | 88 => ⟨S650000x1, .i32⟩
  | 89 => ⟨S50000x128, .f32⟩
  | 90 => ⟨S1x128, .f32⟩
  | 91 => ⟨S50000x128, .f32⟩
  | 92 => ⟨S50000x128, .f32⟩
  | 93 => ⟨S_, .i32⟩
  | 94 => ⟨S650000, .i32⟩
  | 95 => ⟨S650000, .i1⟩
  | 96 => ⟨S_, .i32⟩
  | 97 => ⟨S650000, .i32⟩
  | 98 => ⟨S650000, .i32⟩
  | 99 => ⟨S650000, .i32⟩
  | 100 => ⟨S650000x1, .i32⟩
  | 101 => ⟨S650000x128, .f32⟩
  | 102 => ⟨S650000x1, .f32⟩
  | 103 => ⟨S650000x128, .f32⟩
  | 104 => ⟨S650000x128, .f32⟩
  | 105 => ⟨S_, .f32⟩
  | 106 => ⟨S50000x128, .f32⟩
  | 107 => ⟨S650000x1, .i32⟩
  | 108 => ⟨S50000x128, .f32⟩
  | 109 => ⟨S1x128, .f32⟩
  | 110 => ⟨S50000x128, .f32⟩
  | 111 => ⟨S_, .f32⟩
  | 112 => ⟨S512x128, .f32⟩
  | 113 => ⟨S50000x1, .i32⟩
  | 114 => ⟨S512x128, .f32⟩
  | 115 => ⟨S_, .f32⟩
  | 116 => ⟨S50000, .f32⟩
  | 117 => ⟨S_, .f32⟩
  | 118 => ⟨S512, .f32⟩
  | 119 => ⟨S50000x1, .i32⟩
  | 120 => ⟨S512, .f32⟩
  | 121 => ⟨S_, .f32⟩
  | 122 => ⟨S512, .f32⟩
  | 123 => ⟨S512, .f32⟩
  | 124 => ⟨S512x1, .f32⟩
  | 125 => ⟨S512x128, .f32⟩
  | 126 => ⟨S512x128, .f32⟩
  | 127 => ⟨S1x10, .f32⟩
  | _ => ⟨S50000x128, .f32⟩

abbrev hbmTy0_1 (i : Nat) : BufTy := match i % 128 with
  | 0 => ⟨S512x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S512x128, .f32⟩
  | .local _ .vmem, ⟨31, _⟩ => ⟨S128x10, .f32⟩
  | .local _ .vmem, ⟨32, _⟩ => ⟨S1x10, .f32⟩
  | .local _ .vmem, ⟨33, _⟩ => ⟨S512x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_10 : Ref sig .tc := ⟨.hbm, 74, rfl⟩
abbrev main_v49 : Ref sig .tc := ⟨.hbm, 75, rfl⟩
abbrev main_v50 : Ref sig .tc := ⟨.hbm, 76, rfl⟩
abbrev main_c_11 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_13 : Ref sig .tc := ⟨.hbm, 93, rfl⟩
abbrev main_v65 : Ref sig .tc := ⟨.hbm, 94, rfl⟩
abbrev main_v66 : Ref sig .tc := ⟨.hbm, 95, rfl⟩
abbrev main_c_14 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_15 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_cst_16 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_17 : Ref sig .tc := ⟨.hbm, 115, rfl⟩
abbrev main_v83 : Ref sig .tc := ⟨.hbm, 116, rfl⟩
abbrev main_cst_18 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_19 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg1_0 : Ref sig .tc := ⟨.vmem, 31, rfl⟩
abbrev cc6_stg2_0 : Ref sig .tc := ⟨.vmem, 32, rfl⟩
abbrev cc6_stg3_0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem1_0 : DmaSem sig := 31
abbrev cc6_sem2_0 : DmaSem sig := 32
abbrev cc6_sem3_0 : DmaSem sig := 33

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S512x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S128x10 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x10 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S512x10 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  shapeCasts_S10_S1x10 : S10.ShapeCasts S1x10
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  reduces_S512x10_S512 : S512x10.Reduces [1] S512
  shapeCasts_S512_S512x1 : S512.ShapeCasts S512x1
  broadcasts_S512x1_S512x10 : S512x1.Broadcasts S512x10
  inb_S512x10_S512x10_0_0 : ∀ a, (![0, 0] : Fin 2 → Nat) a + S512x10.size a ≤ S512x10.size a
  h_S512x10 : 0 < S512x10.numel
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S5000x128_S128x128_S5000x128_1_0_0_1_n_n_wf : DotDims.WF S5000x128 S128x128 S5000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x10_S512x10_1_0_0_1_n_n_wf : DotDims.WF S512x128 S128x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S50000x128.size a
  hwx4_2 : ∀ i : grid4.Coords, EltTy.bits .f32 = 32 ∨ (Rect.block (s := S50000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S50000x128.size a
  hwx5_2 : ∀ i : grid5.Coords, EltTy.bits .f32 = 32 ∨ (Rect.block (s := S50000x128) S5000x128.size (cc5_transform_2 i) (hinb5_2 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x128.size a ≤ S512x128.size a
  hwx6_0 : ∀ i : grid6.Coords, EltTy.bits .f32 = 32 ∨ (Rect.block (s := S512x128) S512x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x10.size a ≤ S128x10.size a
  hwx6_1 : ∀ i : grid6.Coords, EltTy.bits .f32 = 32 ∨ (Rect.block (s := S128x10) S128x10.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x10.size a ≤ S1x10.size a
  hwx6_2 : ∀ i : grid6.Coords, EltTy.bits .f32 = 32 ∨ (Rect.block (s := S1x10) S1x10.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S512x10.size a ≤ S512x10.size a
  hwx6_3 : ∀ i : grid6.Coords, EltTy.bits .f32 = 32 ∨ (Rect.block (s := S512x10) S512x10.size (cc6_transform_3 i) (hinb6_3 i)).WholeWords (EltTy.packing .f32)

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v91) S512x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x10.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v92) S1x10.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v93) S512x10.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x600000 : Shape := ⟨2, ![1, 600000]⟩
abbrev S600000 : Shape := ⟨1, ![600000]⟩
abbrev S650000 : Shape := ⟨1, ![650000]⟩
abbrev S_ : Shape := ⟨0, ![]⟩
abbrev S650000x1 : Shape := ⟨2, ![650000, 1]⟩
abbrev S650000x128 : Shape := ⟨2, ![650000, 128]⟩
abbrev S1x128 : Shape := ⟨2, ![1, 128]⟩
abbrev S512x128 : Shape := ⟨2, ![512, 128]⟩
abbrev S50000x1 : Shape := ⟨2, ![50000, 1]⟩
abbrev S512 : Shape := ⟨1, ![512]⟩
abbrev S512x1 : Shape := ⟨2, ![512, 1]⟩
abbrev S512x10 : Shape := ⟨2, ![512, 10]⟩
abbrev S1x10 : Shape := ⟨2, ![1, 10]⟩

abbrev nBuf : Space → Nat
  | .hbm => 158
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S128x10, .f32⟩
  | 10 => ⟨S10, .f32⟩
  | 11 => ⟨S1x600000, .i32⟩
  | 12 => ⟨S600000, .i32⟩
  | 13 => ⟨S1x600000, .i32⟩
  | 14 => ⟨S600000, .i32⟩
  | 15 => ⟨S50000, .i32⟩
  | 16 => ⟨S650000, .i32⟩
  | 17 => ⟨S650000, .i32⟩
  | 18 => ⟨S_, .f32⟩
  | 19 => ⟨S650000, .f32⟩
  | 20 => ⟨S_, .f32⟩
  | 21 => ⟨S50000, .f32⟩
  | 22 => ⟨S650000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S50000, .f32⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S650000, .i32⟩
  | 37 => ⟨S650000, .i1⟩
  | 38 => ⟨S_, .i32⟩
  | 39 => ⟨S650000, .i32⟩
  | 40 => ⟨S650000, .i32⟩
  | 41 => ⟨S650000, .i32⟩
  | 42 => ⟨S650000x1, .i32⟩
  | 43 => ⟨S650000, .f32⟩
  | 44 => ⟨S_, .i32⟩
  | 45 => ⟨S650000, .i32⟩
  | 46 => ⟨S650000, .i1⟩
  | 47 => ⟨S_, .i32⟩
  | 48 => ⟨S650000, .i32⟩
  | 49 => ⟨S650000, .i32⟩
  | 50 => ⟨S650000, .i32⟩
  | 51 => ⟨S650000x1, .i32⟩
  | 52 => ⟨S650000, .f32⟩
  | 53 => ⟨S650000, .f32⟩
  | 54 => ⟨S50000x128, .f32⟩
  | 55 => ⟨S_, .i32⟩
  | 56 => ⟨S650000, .i32⟩
  | 57 => ⟨S650000, .i1⟩
  | 58 => ⟨S_, .i32⟩
  | 59 => ⟨S650000, .i32⟩
  | 60 => ⟨S650000, .i32⟩
  | 61 => ⟨S650000, .i32⟩
  | 62 => ⟨S650000x1, .i32⟩
  | 63 => ⟨S650000x128, .f32⟩
  | 64 => ⟨S650000x1, .f32⟩
  | 65 => ⟨S650000x128, .f32⟩
  | 66 => ⟨S650000x128, .f32⟩
  | 67 => ⟨S_, .f32⟩
  | 68 => ⟨S50000x128, .f32⟩
  | 69 => ⟨S650000x1, .i32⟩
  | 70 => ⟨S50000x128, .f32⟩
  | 71 => ⟨S1x128, .f32⟩
  | 72 => ⟨S50000x128, .f32⟩
  | 73 => ⟨S50000x128, .f32⟩
  | 74 => ⟨S_, .f32⟩
  | 75 => ⟨S50000x128, .f32⟩
  | 76 => ⟨S50000x128, .f32⟩
  | 77 => ⟨S50000x128, .f32⟩
  | 78 => ⟨S_, .i32⟩
  | 79 => ⟨S650000, .i32⟩
  | 80 => ⟨S650000, .i1⟩
  | 81 => ⟨S_, .i32⟩
  | 82 => ⟨S650000, .i32⟩
  | 83 => ⟨S650000, .i32⟩
  | 84 => ⟨S650000, .i32⟩
  | 85 => ⟨S650000x1, .i32⟩
  | 86 => ⟨S650000x128, .f32⟩
  | 87 => ⟨S650000x1, .f32⟩
  | 88 => ⟨S650000x128, .f32⟩
  | 89 => ⟨S650000x128, .f32⟩
  | 90 => ⟨S_, .f32⟩
  | 91 => ⟨S50000x128, .f32⟩
  | 92 => ⟨S650000x1, .i32⟩
  | 93 => ⟨S50000x128, .f32⟩
  | 94 => ⟨S1x128, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S50000x128, .f32⟩
  | 101 => ⟨S_, .i32⟩
  | 102 => ⟨S650000, .i32⟩
  | 103 => ⟨S650000, .i1⟩
  | 104 => ⟨S_, .i32⟩
  | 105 => ⟨S650000, .i32⟩
  | 106 => ⟨S650000, .i32⟩
  | 107 => ⟨S650000, .i32⟩
  | 108 => ⟨S650000x1, .i32⟩
  | 109 => ⟨S650000x128, .f32⟩
  | 110 => ⟨S650000x1, .f32⟩
  | 111 => ⟨S650000x128, .f32⟩
  | 112 => ⟨S650000x128, .f32⟩
  | 113 => ⟨S_, .f32⟩
  | 114 => ⟨S50000x128, .f32⟩
  | 115 => ⟨S650000x1, .i32⟩
  | 116 => ⟨S50000x128, .f32⟩
  | 117 => ⟨S1x128, .f32⟩
  | 118 => ⟨S50000x128, .f32⟩
  | 119 => ⟨S50000x128, .f32⟩
  | 120 => ⟨S_, .f32⟩
  | 121 => ⟨S50000x128, .f32⟩
  | 122 => ⟨S50000x128, .f32⟩
  | 123 => ⟨S_, .f32⟩
  | 124 => ⟨S512x128, .f32⟩
  | 125 => ⟨S50000x1, .i32⟩
  | 126 => ⟨S512x128, .f32⟩
  | 127 => ⟨S_, .f32⟩
  | _ => ⟨S50000x128, .f32⟩

abbrev hbmTy0_1 (i : Nat) : BufTy := match i % 128 with
  | 0 => ⟨S50000, .f32⟩
  | 1 => ⟨S_, .f32⟩
  | 2 => ⟨S512, .f32⟩
  | 3 => ⟨S50000x1, .i32⟩
  | 4 => ⟨S512, .f32⟩
  | 5 => ⟨S_, .f32⟩
  | 6 => ⟨S512, .f32⟩
  | 7 => ⟨S512, .f32⟩
  | 8 => ⟨S512x1, .f32⟩
  | 9 => ⟨S512x128, .f32⟩
  | 10 => ⟨S512x128, .f32⟩
  | 11 => ⟨S512x10, .f32⟩
  | 12 => ⟨S1x10, .f32⟩
  | 13 => ⟨S512x10, .f32⟩
  | 14 => ⟨S512x10, .f32⟩
  | 15 => ⟨S_, .f32⟩
  | 16 => ⟨S512, .f32⟩
  | 17 => ⟨S_, .f32⟩
  | 18 => ⟨S512, .f32⟩
  | 19 => ⟨S512, .f32⟩
  | 20 => ⟨S512x1, .f32⟩
  | 21 => ⟨S512x10, .f32⟩
  | 22 => ⟨S512x10, .f32⟩
  | 23 => ⟨S512x10, .f32⟩
  | 24 => ⟨S_, .f32⟩
  | 25 => ⟨S512, .f32⟩
  | 26 => ⟨S512x1, .f32⟩
  | 27 => ⟨S512x1, .f32⟩
  | 28 => ⟨S512x10, .f32⟩
  | 29 => ⟨S512x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_c_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_call2_cst : Ref sig .tc := ⟨.hbm, 97, rfl⟩
abbrev main_call2_v0 : Ref sig .tc := ⟨.hbm, 98, rfl⟩
abbrev main_v67 : Ref sig .tc := ⟨.hbm, 99, rfl⟩
abbrev main_v68 : Ref sig .tc := ⟨.hbm, 100, rfl⟩
abbrev main_c_13 : Ref sig .tc := ⟨.hbm, 101, rfl⟩
abbrev main_v69 : Ref sig .tc := ⟨.hbm, 102, rfl⟩
abbrev main_v70 : Ref sig .tc := ⟨.hbm, 103, rfl⟩
abbrev main_c_14 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_15 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_call3_cst : Ref sig .tc := ⟨.hbm, 120, rfl⟩
abbrev main_call3_v0 : Ref sig .tc := ⟨.hbm, 121, rfl⟩
abbrev main_v85 : Ref sig .tc := ⟨.hbm, 122, rfl⟩
abbrev main_cst_16 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_17 : Ref sig .tc := ⟨.hbm, 127, rfl⟩
abbrev main_v89 : Ref sig .tc := ⟨.hbm, 128, rfl⟩
abbrev main_cst_18 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_19 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_call4_cst : Ref sig .tc := ⟨.hbm, 143, rfl⟩
abbrev main_call4_v0 : Ref sig .tc := ⟨.hbm, 144, rfl⟩
abbrev main_call4_cst_0 : Ref sig .tc := ⟨.hbm, 145, rfl⟩
abbrev main_call4_v1 : Ref sig .tc := ⟨.hbm, 146, rfl⟩
abbrev main_call4_v2 : Ref sig .tc := ⟨.hbm, 147, rfl⟩
abbrev main_call4_v3 : Ref sig .tc := ⟨.hbm, 148, rfl⟩
abbrev main_call4_v4 : Ref sig .tc := ⟨.hbm, 149, rfl⟩
abbrev main_call4_v5 : Ref sig .tc := ⟨.hbm, 150, rfl⟩
abbrev main_call4_v6 : Ref sig .tc := ⟨.hbm, 151, rfl⟩
abbrev main_call4_cst_1 : Ref sig .tc := ⟨.hbm, 152, rfl⟩
abbrev main_call4_v7 : Ref sig .tc := ⟨.hbm, 153, rfl⟩
abbrev main_call4_v8 : Ref sig .tc := ⟨.hbm, 154, rfl⟩
abbrev main_call4_v9 : Ref sig .tc := ⟨.hbm, 155, rfl⟩
abbrev main_call4_v10 : Ref sig .tc := ⟨.hbm, 156, rfl⟩
abbrev main_v102 : Ref sig .tc := ⟨.hbm, 157, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  concatenates_S600000_S50000_S650000_d0 : Shape.Concatenates [S600000, S50000] S650000 0
  bcast_S_S650000 : S_.BroadcastsInDim S650000 (![] : Fin 0 → Fin S650000.rank)
  bcast_S_S50000 : S_.BroadcastsInDim S50000 (![] : Fin 0 → Fin S50000.rank)
  bcast_S650000_S650000x1_0 : S650000.BroadcastsInDim S650000x1 (![0] : Fin 1 → Fin S650000x1.rank)
  bcast_S650000x1_S650000x128_0_1 : S650000x1.BroadcastsInDim S650000x128 (![0, 1] : Fin 2 → Fin S650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S10_S1x10_1 : S10.BroadcastsInDim S1x10 (![1] : Fin 1 → Fin S1x10.rank)
  bcast_S1x10_S512x10_0_1 : S1x10.BroadcastsInDim S512x10 (![0, 1] : Fin 2 → Fin S512x10.rank)
  reducesTo_S512x10_S512_d1 : S512x10.ReducesTo [1] S512
  h_S_ : 0 < S_.numel
  bcast_S512x1_S512x10_0_1 : S512x1.BroadcastsInDim S512x10 (![0, 1] : Fin 2 → Fin S512x10.rank)
  scatter_S50000_S650000x1_S650000_n_0_0_1_wf : ScatterDims.WF S50000 S650000x1 S650000 [] [0] [0] 1
  gather_S50000_S650000x1_S650000_n_0_n_n_0_1_1_wf : GatherDims.WF S50000 S650000x1 S650000 [] [0] [] [0] [] 1 ![1]
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x10_S512x10_1_0_0_1_n_n_wf : DotDims.WF S512x128 S128x10 S512x10 [1] [0] [0] [1] [] []

variable [Facts₀]

def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def gather_S50000_S650000x1_S650000_n_0_n_n_0_1_1 : GatherDims S50000 S650000x1 S650000 where
  offsetDims := []
  collapsedSliceDims := [0]
  operandBatchingDims := []
  startIndicesBatchingDims := []
  startIndexMap := [0]
  indexVectorDim := 1
  sliceSizes := ![1]
  wf := gather_S50000_S650000x1_S650000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x10_S512x10_1_0_0_1_n_n : DotDims S512x128 S128x10 S512x10 where
  lhsContracting := [1]
  rhsContracting := [0]
  lhsNonContracting := [0]
  rhsNonContracting := [1]
  lhsBatch := []
  rhsBatch := []
  wf := dot_S512x128_S128x10_S512x10_1_0_0_1_n_n_wf

class Facts : Prop extends Facts₀ where

variable [Facts]
-- ==== Proof.Spec.lean ====
/-
  The network as one function of its arguments, written over the host's array operations.

  A graph of 50000 nodes with 600000 directed edges gets one self loop per node, so the edge list has 650000 entries:
  `rowIdx` (the sources) and `colIdx` (the targets).  A node's degree counts the list entries that point at it; the
  weight of an entry is the product of the inverse square roots of the degrees of its two ends (`norm`), a node of degree
  zero contributing zero.  One layer multiplies the node features by a weight matrix (`dense`), sends every entry's source
  row, scaled by the entry's weight, to the entry's target and sums there (`agg`), adds the bias and clamps at zero
  (`biasRelu`).  After three layers the node rows are averaged per graph (`pool`: the sum of the rows of a graph's nodes over
  the larger of their number and one), a last matrix and bias give ten scores per graph (`logits`), and each row of scores has
  the logarithm of the sum of its exponentials subtracted, after the row's maximum (`logSoftmax`).
-/
import proofs.«157506_j28080496181754_1_alg».proof.ReferenceIdeal

noncomputable section

namespace Cert.Gcn

open Idealize.ShloMosaic Cert.ReferenceIdeal

variable {F : FTy → Type} [FloatOps F] [Cert.ReferenceIdeal.Facts]
open Cert.ReferenceIdeal.Facts₀ Cert.ReferenceIdeal.Facts

/-- The contents of an array of shape `S` and element type `e`. -/
abbrev Arr (F : FTy → Type) (S : Shape) (e : EltTy) : Type := (⟨S, e⟩ : BufTy).Contents (Elt F)

/-- The sources of the 600000 edges followed by the 50000 self loops. -/
def rowIdx (e : Arr F S2x600000 .i32) : Arr F S650000 .i32 :=
  concatenate S650000 0 [⟨S600000, (shapeCast _ (extractStridedSlice S1x600000 ![0, 0] e slices_S2x600000_S1x600000_0_0) shapeCasts_S1x600000_S600000)⟩, ⟨S50000, (iotaInDim S50000 32 0)⟩] concatenates_S600000_S50000_S650000_d0

/-- The targets of the 600000 edges followed by the 50000 self loops. -/
def colIdx (e : Arr F S2x600000 .i32) : Arr F S650000 .i32 :=
  concatenate S650000 0 [⟨S600000, (shapeCast _ (extractStridedSlice S1x600000 ![1, 0] e slices_S2x600000_S1x600000_1_0) shapeCasts_S1x600000_S600000)⟩, ⟨S50000, (iotaInDim S50000 32 0)⟩] concatenates_S600000_S50000_S650000_d0

/-- A negative node number counts from the end. -/
def wrap (r : Arr F S650000 .i32) : Arr F S650000 .i32 :=
  select (cmpi .slt r (broadcastInDim S650000 ![] bcast_S_S650000 (constantI S_ 32 0#32))) (addi r (broadcastInDim S650000 ![] bcast_S_S650000 (constantI S_ 32 50000#32))) r

/-- How many list entries point at each node. -/
def deg (c6 : Arr F S650000 .i32) : Arr F S50000 .f32 :=
  Host.scatterAdd scatter_S50000_S650000x1_S650000_n_0_0_1 (broadcastInDim S50000 ![] bcast_S_S50000 (constant S_ .f32 0x00000000#32)) (broadcastInDim S650000x1 ![0] bcast_S650000_S650000x1_0 c6) (broadcastInDim S650000 ![] bcast_S_S650000 (constant S_ .f32 0x3F800000#32))

/-- One over the square root of the degree, zero where the degree is not positive. -/
def dis (c6 : Arr F S650000 .i32) : Arr F S50000 .f32 :=
  select (cmpf .ogt (deg c6) (broadcastInDim S50000 ![] bcast_S_S50000 (constant S_ .f32 0x00000000#32))) (Host.divf (broadcastInDim S50000 ![] bcast_S_S50000 (constant S_ .f32 0x3F800000#32)) (Host.sqrt (deg c6))) (broadcastInDim S50000 ![] bcast_S_S50000 (id (constant S_ .f32 0x00000000#32)))

/-- The weight of each list entry. -/
def norm (r5 c6 : Arr F S650000 .i32) : Arr F S650000 .f32 :=
  mulf (Host.gather gather_S50000_S650000x1_S650000_n_0_n_n_0_1_1 (dis c6) (broadcastInDim S650000x1 ![0] bcast_S650000_S650000x1_0 (wrap r5))) (Host.gather gather_S50000_S650000x1_S650000_n_0_n_n_0_1_1 (dis c6) (broadcastInDim S650000x1 ![0] bcast_S650000_S650000x1_0 (wrap c6)))

/-- Every entry's source row, scaled by the entry's weight, summed at the entry's target. -/
def agg (t : Arr F S50000x128 .f32) (r5 c6 : Arr F S650000 .i32) (n : Arr F S650000 .f32) : Arr F S50000x128 .f32 :=
  Host.scatterAdd scatter_S50000x128_S650000x1_S650000x128_1_0_0_1 (broadcastInDim S50000x128 ![] bcast_S_S50000x128 (constant S_ .f32 0x00000000#32)) (broadcastInDim S650000x1 ![0] bcast_S650000_S650000x1_0 c6) (mulf (Host.gather gather_S50000x128_S650000x1_S650000x128_1_0_n_n_0_1_1128 t (broadcastInDim S650000x1 ![0] bcast_S650000_S650000x1_0 (wrap r5))) (broadcastInDim S650000x128 ![0, 1] bcast_S650000x1_S650000x128_0_1 (broadcastInDim S650000x1 ![0] bcast_S650000_S650000x1_0 n)))

/-- The node features times a weight matrix. -/
def dense (h : Arr F S50000x128 .f32) (w : Arr F S128x128 .f32) : Arr F S50000x128 .f32 :=
  Host.dotGeneral dot_S50000x128_S128x128_S50000x128_1_0_0_1_n_n none h w

/-- Add a bias, laid as one row, to every row and clamp at zero. -/
def biasRelu2 (a : Arr F S50000x128 .f32) (b2 : Arr F S1x128 .f32) : Arr F S50000x128 .f32 :=
  maximumf (addf a (broadcastInDim S50000x128 ![0, 1] bcast_S1x128_S50000x128_0_1 b2)) (broadcastInDim S50000x128 ![] bcast_S_S50000x128 (constant S_ .f32 0x00000000#32))

/-- Add the bias to every row and clamp at zero. -/
def biasRelu (a : Arr F S50000x128 .f32) (b : Arr F S128 .f32) : Arr F S50000x128 .f32 :=
  biasRelu2 a (broadcastInDim S1x128 ![1] bcast_S128_S1x128_1 b)

/-- One layer. -/
def layer (h : Arr F S50000x128 .f32) (w : Arr F S128x128 .f32) (b : Arr F S128 .f32) (e : Arr F S2x600000 .i32) : Arr F S50000x128 .f32 :=
  biasRelu (agg (dense h w) (rowIdx e) (colIdx e) (norm (rowIdx e) (colIdx e))) b

/-- The average of the node rows of each graph. -/
def pool (h : Arr F S50000x128 .f32) (g : Arr F S50000 .i32) : Arr F S512x128 .f32 :=
  Host.divf (Host.scatterAdd scatter_S512x128_S50000x1_S50000x128_1_0_0_1 (broadcastInDim S512x128 ![] bcast_S_S512x128 (constant S_ .f32 0x00000000#32)) (broadcastInDim S50000x1 ![0] bcast_S50000_S50000x1_0 g) h) (broadcastInDim S512x128 ![0, 1] bcast_S512x1_S512x128_0_1 (broadcastInDim S512x1 ![0] bcast_S512_S512x1_0 (maximumf (Host.scatterAdd scatter_S512_S50000x1_S50000_n_0_0_1 (broadcastInDim S512 ![] bcast_S_S512 (constant S_ .f32 0x00000000#32)) (broadcastInDim S50000x1 ![0] bcast_S50000_S50000x1_0 g) (broadcastInDim S50000 ![] bcast_S_S50000 (constant S_ .f32 0x3F800000#32))) (broadcastInDim S512 ![] bcast_S_S512 (constant S_ .f32 0x3F800000#32)))))

/-- Ten scores per graph, the bias laid as one row. -/
def logits2 (p : Arr F S512x128 .f32) (wf : Arr F S128x10 .f32) (b2 : Arr F S1x10 .f32) : Arr F S512x10 .f32 :=
  addf (Host.dotGeneral dot_S512x128_S128x10_S512x10_1_0_0_1_n_n none p wf) (broadcastInDim S512x10 ![0, 1] bcast_S1x10_S512x10_0_1 b2)

/-- Ten scores per graph. -/
def logits (p : Arr F S512x128 .f32) (wf : Arr F S128x10 .f32) (bf : Arr F S10 .f32) : Arr F S512x10 .f32 :=
  logits2 p wf (broadcastInDim S1x10 ![1] bcast_S10_S1x10_1 bf)

/-- A row of scores less its maximum. -/
def shifted (z : Arr F S512x10 .f32) : Arr F S512x10 .f32 :=
  subf z (broadcastInDim S512x10 ![0, 1] bcast_S512x1_S512x10_0_1 (broadcastInDim S512x1 ![0] bcast_S512_S512x1_0 (maximumf (broadcastInDim S512 ![] bcast_S_S512 (constant S_ .f32 0xFF800000#32)) (Host.reduce FloatOps.maximumf z (constant S_ .f32 0xFF800000#32) reducesTo_S512x10_S512_d1 h_S_))))

/-- Each row less its maximum and less the logarithm of the sum of the exponentials of what is left. -/
def logSoftmax (z : Arr F S512x10 .f32) : Arr F S512x10 .f32 :=
  subf (shifted z) (broadcastInDim S512x10 ![0, 1] bcast_S512x1_S512x10_0_1 (Host.log (broadcastInDim S512x1 ![0] bcast_S512_S512x1_0 (Host.reduceAdd (Host.exp (shifted z)) (constant S_ .f32 0x00000000#32) reducesTo_S512x10_S512_d1 h_S_))))

/-- The whole network. -/
def net (x : Arr F S50000x128 .f32) (e : Arr F S2x600000 .i32) (g : Arr F S50000 .i32)
    (w0 : Arr F S128x128 .f32) (b0 : Arr F S128 .f32) (w1 : Arr F S128x128 .f32) (b1 : Arr F S128 .f32)
    (w2 : Arr F S128x128 .f32) (b2 : Arr F S128 .f32) (wf : Arr F S128x10 .f32) (bf : Arr F S10 .f32) : Arr F S512x10 .f32 :=
  logSoftmax (logits (pool (layer (layer (layer x w0 b0 e) w1 b1 e) w2 b2 e) g) wf bf)

end Cert.Gcn

end
-- ==== Proof.RefSpec.lean ====
/-
  The reference's result is the specification's network of its arguments: its composed term is that function written out.
-/
import proofs.«157506_j28080496181754_1_alg».proof.Proof.RefRun
import proofs.«157506_j28080496181754_1_alg».proof.Proof.Spec

set_option maxRecDepth 16384

noncomputable section

namespace Cert.ReferenceIdeal.RefValue

open Cert.ReferenceIdeal Cert.ReferenceIdeal.Gen Cert.ReferenceIdeal.Value
open Idealize.ShloMosaic Idealize.ShloMosaic.TcCoe Idealize.SL.Sem

variable {F : FTy → Type} [FloatOps F]

set_option maxHeartbeats 4000000 in
theorem result_eq (m : (ℓ : Loc nD τ sig) → Buf (Elt F) ℓ) (c : Dev nD) :
    res_main_v102 m c = Cert.Gcn.net (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) := by
  unfold res_main_v102
  rfl

end Cert.ReferenceIdeal.RefValue

end
-- ==== Proof.Named.lean ====
/-
  The kernel's program run with its result named.

  The program is fourteen segments: stretches of host operations and seven kernel launches.  The contents of the
  TensorCore's buffers at the fourteen boundaries are a fold from the launch memory: a stretch applies its operations, a
  launch replaces its arrays by what its write-backs leave.  Every weakly fair execution terminates in a state whose
  unscoped buffers hold the last boundary's contents; read at the result buffer that is the statement here, and read at
  the eleven arguments it is the launch memory again.
-/
import proofs.«157506_j28080496181754_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the arguments as launched. -/
theorem run_named : θ_run defs (onTc (τ := τ) (main (F := F))) ⟨m, fun _ => 0, ρ⟩ (fun r => ∀ c : Dev nD,
      r.2.mem ((c.tc : Thread nD τ).loc main_v93) = W14 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v93 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c)⟩)

end Cert.KernelIdeal.Named

end
-- ==== Proof.Steps.lean ====
/-
  Buffers that a segment of the kernel's program leaves alone.

  The program's buffer contents at its fourteen segment boundaries are a fold: a stretch of host operations rewrites the
  result buffer of each of its operations and nothing else; a kernel launch rewrites its own arrays and nothing else.  So a
  buffer that is neither a result of the stretch nor an array of the launch holds after the segment what it held before.
  One statement per segment, for any buffer, with the side condition decided.
-/
import proofs.«157506_j28080496181754_1_alg».proof.Proof.Gen.KernelIdeal.Frame

set_option maxRecDepth 16384

noncomputable section

namespace Cert.KernelIdeal.Steps

open Cert.KernelIdeal Cert.KernelIdeal.Gen
open Idealize.ShloMosaic Idealize.ShloMosaic.TcCoe Idealize.SL.Sem Idealize.ShloMosaic.StableHlo

variable {F : FTy → Type} [FloatOps F]

/-- Decides that no operation of a literal stretch has the given buffer as its result. -/
macro "keeph" : tactic => `(tactic| (
  refine List.forall_iff_forall_mem.mp ?_
  simp only [hostOps0, hostOps0_1, hostOps0_2, hostOps1, hostOps3, hostOps5, hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)))

variable (m : (ℓ : Loc nD τ sig) → Buf (Elt F) ℓ) (ρ : Dev nD → PrngReg) (c : Dev nD)

/-- At launch a buffer holds the launch memory. -/
theorem at0 (x : Ref sig .tc) : W0 m ρ c (Proc.devRef .tc x) = m ((c : Thread nD τ).loc x) := rfl

theorem s1 (x : Ref sig .tc)
    (h : ∀ op ∈ (hostOps0 : List (HloOp τ sig (Elt F))), (Proc.devRef .tc x : DevRef τ sig) ∉ op.writes := by keeph) :
    W1 m ρ c (Proc.devRef .tc x) = W0 m ρ c (Proc.devRef .tc x) := after_of_forall_not_mem _ _ h

theorem s2 (x : Ref sig .tc)
    (h : ∀ op ∈ (hostOps0_1 : List (HloOp τ sig (Elt F))), (Proc.devRef .tc x : DevRef τ sig) ∉ op.writes := by keeph) :
    W2 m ρ c (Proc.devRef .tc x) = W1 m ρ c (Proc.devRef .tc x) := after_of_forall_not_mem _ _ h

theorem s3 (x : Ref sig .tc)
    (h : ∀ op ∈ (hostOps0_2 : List (HloOp τ sig (Elt F))), (Proc.devRef .tc x : DevRef τ sig) ∉ op.writes := by keeph) :
    W3 m ρ c (Proc.devRef .tc x) = W2 m ρ c (Proc.devRef .tc x) := after_of_forall_not_mem _ _ h

theorem s4 (x : Ref sig .tc) (h : ∀ w, Pipeline.arrRef spec0 w ≠ x := by decide) :
    W4 m ρ c (Proc.devRef .tc x) = W3 m ρ c (Proc.devRef .tc x) := W4_of_ne m ρ c x h

theorem s5 (x : Ref sig .tc)
    (h : ∀ op ∈ (hostOps1 : List (HloOp τ sig (Elt F))), (Proc.devRef .tc x : DevRef τ sig) ∉ op.writes := by keeph) :
    W5 m ρ c (Proc.devRef .tc x) = W4 m ρ c (Proc.devRef .tc x) := after_of_forall_not_mem _ _ h

theorem s6 (x : Ref sig .tc) (h : ∀ w, Pipeline.arrRef spec1 w ≠ x := by decide) :
    W6 m ρ c (Proc.devRef .tc x) = W5 m ρ c (Proc.devRef .tc x) := W6_of_ne m ρ c x h

theorem s7 (x : Ref sig .tc) (h : ∀ w, Pipeline.arrRef spec2 w ≠ x := by decide) :
    W7 m ρ c (Proc.devRef .tc x) = W6 m ρ c (Proc.devRef .tc x) := W7_of_ne m ρ c x h

theorem s8 (x : Ref sig .tc)
    (h : ∀ op ∈ (hostOps3 : List (HloOp τ sig (Elt F))), (Proc.devRef .tc x : DevRef τ sig) ∉ op.writes := by keeph) :
    W8 m ρ c (Proc.devRef .tc x) = W7 m ρ c (Proc.devRef .tc x) := after_of_forall_not_mem _ _ h

theorem s9 (x : Ref sig .tc) (h : ∀ w, Pipeline.arrRef spec3 w ≠ x := by decide) :
    W9 m ρ c (Proc.devRef .tc x) = W8 m ρ c (Proc.devRef .tc x) := W9_of_ne m ρ c x h

theorem s10 (x : Ref sig .tc) (h : ∀ w, Pipeline.arrRef spec4 w ≠ x := by decide) :
    W10 m ρ c (Proc.devRef .tc x) = W9 m ρ c (Proc.devRef .tc x) := W10_of_ne m ρ c x h

theorem s11 (x : Ref sig .tc)
    (h : ∀ op ∈ (hostOps5 : List (HloOp τ sig (Elt F))), (Proc.devRef .tc x : DevRef τ sig) ∉ op.writes := by keeph) :
    W11 m ρ c (Proc.devRef .tc x) = W10 m ρ c (Proc.devRef .tc x) := after_of_forall_not_mem _ _ h

theorem s12 (x : Ref sig .tc) (h : ∀ w, Pipeline.arrRef spec5 w ≠ x := by decide) :
    W12 m ρ c (Proc.devRef .tc x) = W11 m ρ c (Proc.devRef .tc x) := W12_of_ne m ρ c x h

theorem s13 (x : Ref sig .tc)
    (h : ∀ op ∈ (hostOps6 : List (HloOp τ sig (Elt F))), (Proc.devRef .tc x : DevRef τ sig) ∉ op.writes := by keeph) :
    W13 m ρ c (Proc.devRef .tc x) = W12 m ρ c (Proc.devRef .tc x) := after_of_forall_not_mem _ _ h

end Cert.KernelIdeal.Steps

end
-- ==== Proof.LibRowVector.lean ====
/-
  A vector laid as a row.

  A vector of length `a` becomes the one row of a `[1, a]` array in two ways: by reading the vector's entries in
  row-major order at the new shape, or by broadcasting it along the second axis. Both arrays have at `(0, i)` the
  vector's entry `i`, so they are the same array.
-/
import Idealize.ShloMosaic.Lib.Pipeline.Value
import Idealize.ShloMosaic.Lib.ValueIdx
import Idealize.ShloMosaic.Lib.ValueLayout

namespace Cert.Lib.RowVector

open Idealize.ShloMosaic Idealize.ShloMosaic.ValueIdx

/-- The reshape of a vector to one row is its broadcast along the second axis. -/
theorem shapeCast_eq_broadcastInDim {α : Type} {a : ℕ} (x : (⟨1, ![a]⟩ : Shape).Idx → α)
    (h : (⟨1, ![a]⟩ : Shape).ShapeCasts ⟨2, ![1, a]⟩)
    (h' : (⟨1, ![a]⟩ : Shape).BroadcastsInDim ⟨2, ![1, a]⟩ ![1]) :
    shapeCast ⟨2, ![1, a]⟩ x h = broadcastInDim ⟨2, ![1, a]⟩ ![1] h' x := by
  funext j
  obtain ⟨u, i, rfl⟩ : ∃ (u : Fin 1) (i : Fin a), j = ix2 u i := ⟨j 0, j 1, eq_ix2 j⟩
  rw [shapeCast_a_1a_apply]
  refine (broadcastInDim_apply ![1] h' x (ix2 u i) (ix1 i) (fun ax => ?_)).symm
  match ax with
  | ⟨0, _⟩ =>
    show i.val = if a = 1 then 0 else i.val
    split
    · have := i.isLt; omega
    · rfl

end Cert.Lib.RowVector
-- ==== Proof.Chain.lean ====
/-
  What the kernel's program computes, read through its fourteen segments.

  The three stretches before the first launch compute, from the edge list alone, the two index lists (sources and targets
  with the self loops appended) and the weight of every list entry.  Then three times: a launch multiplies the node rows
  by a weight matrix; a stretch gathers, scales and sums the rows along the list and lays the bias as one row; a launch
  adds the bias and clamps at zero.  A last stretch averages the node rows per graph and lays the last bias as one row,
  and the last launch produces the scores.  Each launch's array is given as a hypothesis here, as one function of the
  arrays the launch finds (the seven hypotheses `hD0 … hH6`); between launches the host operations are the specification's
  own, so the values compose to the whole network.  A vector reshaped to one row is the vector broadcast along the second
  axis, which is how the specification lays a bias.
-/
import proofs.«157506_j28080496181754_1_alg».proof.Proof.Gen.KernelIdeal.Frame
import proofs.«157506_j28080496181754_1_alg».proof.Proof.Spec
import proofs.«157506_j28080496181754_1_alg».proof.Proof.Steps
import proofs.«157506_j28080496181754_1_alg».proof.Proof.LibRowVector
import Idealize.ShloMosaic.PureOps.Ideal

set_option maxRecDepth 16384

noncomputable section

namespace Cert.KernelIdeal.Chain

open Cert.KernelIdeal Cert.KernelIdeal.Gen Cert.KernelIdeal.Steps
open Idealize.ShloMosaic Idealize.ShloMosaic.TcCoe Idealize.SL.Sem Idealize.ShloMosaic.StableHlo

variable {F : FTy → Type} [FloatOps F] [Cert.ReferenceIdeal.Facts]
variable (m : (ℓ : Loc nD τ sig) → Buf (Elt F) ℓ) (ρ : Dev nD → PrngReg) (c : Dev nD)

/-! ## Before the first launch: the index lists and the weights, from the edge list -/

theorem w3_rows : W3 m ρ c (Proc.devRef .tc main_v5) = Cert.Gcn.rowIdx (m ((c : Thread nD τ).loc main_arg1)) := by
  after_results_simp
  rfl

theorem w3_cols : W3 m ρ c (Proc.devRef .tc main_v6) = Cert.Gcn.colIdx (m ((c : Thread nD τ).loc main_arg1)) := by
  after_results_simp
  rfl

theorem w3_norm : W3 m ρ c (Proc.devRef .tc main_v31) = Cert.Gcn.norm (Cert.Gcn.rowIdx (m ((c : Thread nD τ).loc main_arg1))) (Cert.Gcn.colIdx (m ((c : Thread nD τ).loc main_arg1))) := by
  after_results_simp
  rfl

/-- A buffer the three first stretches leave alone holds the launch memory at the first launch. -/
theorem k3 (x : Ref sig .tc)
    (h0 : ∀ op ∈ (hostOps0 : List (HloOp τ sig (Elt F))), (Proc.devRef .tc x : DevRef τ sig) ∉ op.writes := by keeph)
    (h1 : ∀ op ∈ (hostOps0_1 : List (HloOp τ sig (Elt F))), (Proc.devRef .tc x : DevRef τ sig) ∉ op.writes := by keeph)
    (h2 : ∀ op ∈ (hostOps0_2 : List (HloOp τ sig (Elt F))), (Proc.devRef .tc x : DevRef τ sig) ∉ op.writes := by keeph) :
    W3 m ρ c (Proc.devRef .tc x) = m ((c : Thread nD τ).loc x) :=
  (s3 m ρ c x h2).trans ((s2 m ρ c x h1).trans ((s1 m ρ c x h0).trans (at0 m ρ c x)))

/-! ## The stretches between launches, from the contents the stretch starts at -/

theorem w5_agg : W5 m ρ c (Proc.devRef .tc main_v45)
    = Cert.Gcn.agg (W4 m ρ c (Proc.devRef .tc main_v32)) (W4 m ρ c (Proc.devRef .tc main_v5)) (W4 m ρ c (Proc.devRef .tc main_v6)) (W4 m ρ c (Proc.devRef .tc main_v31)) := by
  after_results_simp
  rfl

theorem w5_bias : W5 m ρ c (Proc.devRef .tc main_v46)
    = broadcastInDim Cert.ReferenceIdeal.S1x128 ![1] Cert.ReferenceIdeal.Facts₀.bcast_S128_S1x128_1 (W4 m ρ c (Proc.devRef .tc main_arg4)) := by
  after_results_simp
  exact Cert.Lib.RowVector.shapeCast_eq_broadcastInDim _ _ _

theorem w8_agg : W8 m ρ c (Proc.devRef .tc main_v61)
    = Cert.Gcn.agg (W7 m ρ c (Proc.devRef .tc main_v48)) (W7 m ρ c (Proc.devRef .tc main_v5)) (W7 m ρ c (Proc.devRef .tc main_v6)) (W7 m ρ c (Proc.devRef .tc main_v31)) := by
  after_results_simp
  rfl

theorem w8_bias : W8 m ρ c (Proc.devRef .tc main_v62)
    = broadcastInDim Cert.ReferenceIdeal.S1x128 ![1] Cert.ReferenceIdeal.Facts₀.bcast_S128_S1x128_1 (W7 m ρ c (Proc.devRef .tc main_arg6)) := by
  after_results_simp
  exact Cert.Lib.RowVector.shapeCast_eq_broadcastInDim _ _ _

theorem w11_agg : W11 m ρ c (Proc.devRef .tc main_v77)
    = Cert.Gcn.agg (W10 m ρ c (Proc.devRef .tc main_v64)) (W10 m ρ c (Proc.devRef .tc main_v5)) (W10 m ρ c (Proc.devRef .tc main_v6)) (W10 m ρ c (Proc.devRef .tc main_v31)) := by
  after_results_simp
  rfl

theorem w11_bias : W11 m ρ c (Proc.devRef .tc main_v78)
    = broadcastInDim Cert.ReferenceIdeal.S1x128 ![1] Cert.ReferenceIdeal.Facts₀.bcast_S128_S1x128_1 (W10 m ρ c (Proc.devRef .tc main_arg8)) := by
  after_results_simp
  exact Cert.Lib.RowVector.shapeCast_eq_broadcastInDim _ _ _

theorem w13_pool : W13 m ρ c (Proc.devRef .tc main_v91) = Cert.Gcn.pool (W12 m ρ c (Proc.devRef .tc main_v79)) (W12 m ρ c (Proc.devRef .tc main_arg2)) := by
  after_results_simp
  rfl

theorem w13_bias : W13 m ρ c (Proc.devRef .tc main_v92)
    = broadcastInDim Cert.ReferenceIdeal.S1x10 ![1] Cert.ReferenceIdeal.Facts₀.bcast_S10_S1x10_1 (W12 m ρ c (Proc.devRef .tc main_arg10)) := by
  after_results_simp
  exact Cert.Lib.RowVector.shapeCast_eq_broadcastInDim _ _ _

/-! ## Buffers carried unchanged to the segment that reads them -/

theorem carry_r4 : W4 m ρ c (Proc.devRef .tc main_v5) = (Cert.Gcn.rowIdx (m ((c : Thread nD τ).loc main_arg1))) :=
  (s4 m ρ c main_v5).trans (w3_rows m ρ c)

theorem carry_c4 : W4 m ρ c (Proc.devRef .tc main_v6) = (Cert.Gcn.colIdx (m ((c : Thread nD τ).loc main_arg1))) :=
  (s4 m ρ c main_v6).trans (w3_cols m ρ c)

theorem carry_n4 : W4 m ρ c (Proc.devRef .tc main_v31) = (Cert.Gcn.norm (Cert.Gcn.rowIdx (m ((c : Thread nD τ).loc main_arg1))) (Cert.Gcn.colIdx (m ((c : Thread nD τ).loc main_arg1)))) :=
  (s4 m ρ c main_v31).trans (w3_norm m ρ c)

theorem carry_r7 : W7 m ρ c (Proc.devRef .tc main_v5) = (Cert.Gcn.rowIdx (m ((c : Thread nD τ).loc main_arg1))) :=
  (s7 m ρ c main_v5).trans ((s6 m ρ c main_v5).trans ((s5 m ρ c main_v5).trans ((carry_r4 m ρ c))))

theorem carry_c7 : W7 m ρ c (Proc.devRef .tc main_v6) = (Cert.Gcn.colIdx (m ((c : Thread nD τ).loc main_arg1))) :=
  (s7 m ρ c main_v6).trans ((s6 m ρ c main_v6).trans ((s5 m ρ c main_v6).trans ((carry_c4 m ρ c))))

theorem carry_n7 : W7 m ρ c (Proc.devRef .tc main_v31) = (Cert.Gcn.norm (Cert.Gcn.rowIdx (m ((c : Thread nD τ).loc main_arg1))) (Cert.Gcn.colIdx (m ((c : Thread nD τ).loc main_arg1)))) :=
  (s7 m ρ c main_v31).trans ((s6 m ρ c main_v31).trans ((s5 m ρ c main_v31).trans ((carry_n4 m ρ c))))

theorem carry_r10 : W10 m ρ c (Proc.devRef .tc main_v5) = (Cert.Gcn.rowIdx (m ((c : Thread nD τ).loc main_arg1))) :=
  (s10 m ρ c main_v5).trans ((s9 m ρ c main_v5).trans ((s8 m ρ c main_v5).trans ((carry_r7 m ρ c))))

theorem carry_c10 : W10 m ρ c (Proc.devRef .tc main_v6) = (Cert.Gcn.colIdx (m ((c : Thread nD τ).loc main_arg1))) :=
  (s10 m ρ c main_v6).trans ((s9 m ρ c main_v6).trans ((s8 m ρ c main_v6).trans ((carry_c7 m ρ c))))

theorem carry_n10 : W10 m ρ c (Proc.devRef .tc main_v31) = (Cert.Gcn.norm (Cert.Gcn.rowIdx (m ((c : Thread nD τ).loc main_arg1))) (Cert.Gcn.colIdx (m ((c : Thread nD τ).loc main_arg1)))) :=
  (s10 m ρ c main_v31).trans ((s9 m ρ c main_v31).trans ((s8 m ρ c main_v31).trans ((carry_n7 m ρ c))))

theorem carry_a5 : W6 m ρ c (Proc.devRef .tc main_arg5) = (m ((c : Thread nD τ).loc main_arg5)) :=
  (s6 m ρ c main_arg5).trans ((s5 m ρ c main_arg5).trans ((s4 m ρ c main_arg5).trans (k3 m ρ c main_arg5)))

theorem carry_a6 : W7 m ρ c (Proc.devRef .tc main_arg6) = (m ((c : Thread nD τ).loc main_arg6)) :=
  (s7 m ρ c main_arg6).trans ((s6 m ρ c main_arg6).trans ((s5 m ρ c main_arg6).trans ((s4 m ρ c main_arg6).trans (k3 m ρ c main_arg6))))

theorem carry_a7 : W9 m ρ c (Proc.devRef .tc main_arg7) = (m ((c : Thread nD τ).loc main_arg7)) :=
  (s9 m ρ c main_arg7).trans ((s8 m ρ c main_arg7).trans ((s7 m ρ c main_arg7).trans ((s6 m ρ c main_arg7).trans ((s5 m ρ c main_arg7).trans ((s4 m ρ c main_arg7).trans (k3 m ρ c main_arg7))))))

theorem carry_a8 : W10 m ρ c (Proc.devRef .tc main_arg8) = (m ((c : Thread nD τ).loc main_arg8)) :=
  (s10 m ρ c main_arg8).trans ((s9 m ρ c main_arg8).trans ((s8 m ρ c main_arg8).trans ((s7 m ρ c main_arg8).trans ((s6 m ρ c main_arg8).trans ((s5 m ρ c main_arg8).trans ((s4 m ρ c main_arg8).trans (k3 m ρ c main_arg8)))))))

theorem carry_a2 : W12 m ρ c (Proc.devRef .tc main_arg2) = (m ((c : Thread nD τ).loc main_arg2)) :=
  (s12 m ρ c main_arg2).trans ((s11 m ρ c main_arg2).trans ((s10 m ρ c main_arg2).trans ((s9 m ρ c main_arg2).trans ((s8 m ρ c main_arg2).trans ((s7 m ρ c main_arg2).trans ((s6 m ρ c main_arg2).trans ((s5 m ρ c main_arg2).trans ((s4 m ρ c main_arg2).trans (k3 m ρ c main_arg2)))))))))

theorem carry_a10 : W12 m ρ c (Proc.devRef .tc main_arg10) = (m ((c : Thread nD τ).loc main_arg10)) :=
  (s12 m ρ c main_arg10).trans ((s11 m ρ c main_arg10).trans ((s10 m ρ c main_arg10).trans ((s9 m ρ c main_arg10).trans ((s8 m ρ c main_arg10).trans ((s7 m ρ c main_arg10).trans ((s6 m ρ c main_arg10).trans ((s5 m ρ c main_arg10).trans ((s4 m ρ c main_arg10).trans (k3 m ρ c main_arg10)))))))))

theorem carry_a9 : W13 m ρ c (Proc.devRef .tc main_arg9) = (m ((c : Thread nD τ).loc main_arg9)) :=
  (s13 m ρ c main_arg9).trans ((s12 m ρ c main_arg9).trans ((s11 m ρ c main_arg9).trans ((s10 m ρ c main_arg9).trans ((s9 m ρ c main_arg9).trans ((s8 m ρ c main_arg9).trans ((s7 m ρ c main_arg9).trans ((s6 m ρ c main_arg9).trans ((s5 m ρ c main_arg9).trans ((s4 m ρ c main_arg9).trans (k3 m ρ c main_arg9))))))))))

/-! ## The seven launches composed -/

section Value

variable
  (hD0 : ∀ (V : (c : Dev nD) → (b : Ref sig .tc) → Buf (Elt F) ((c : Thread nD τ).loc b)) (c : Dev nD), (dat0 (F := F) V c).arrAt 2 cfg0.N = Cert.Gcn.dense (F := F) (V c main_arg0) (V c main_arg3))
  (hB1 : ∀ (V : (c : Dev nD) → (b : Ref sig .tc) → Buf (Elt F) ((c : Thread nD τ).loc b)) (c : Dev nD), (dat1 (F := F) V c).arrAt 2 cfg1.N = Cert.Gcn.biasRelu2 (F := F) (V c main_v45) (V c main_v46))
  (hD2 : ∀ (V : (c : Dev nD) → (b : Ref sig .tc) → Buf (Elt F) ((c : Thread nD τ).loc b)) (c : Dev nD), (dat2 (F := F) V c).arrAt 2 cfg2.N = Cert.Gcn.dense (F := F) (V c main_v47) (V c main_arg5))
  (hB3 : ∀ (V : (c : Dev nD) → (b : Ref sig .tc) → Buf (Elt F) ((c : Thread nD τ).loc b)) (c : Dev nD), (dat3 (F := F) V c).arrAt 2 cfg3.N = Cert.Gcn.biasRelu2 (F := F) (V c main_v61) (V c main_v62))
  (hD4 : ∀ (V : (c : Dev nD) → (b : Ref sig .tc) → Buf (Elt F) ((c : Thread nD τ).loc b)) (c : Dev nD), (dat4 (F := F) V c).arrAt 2 cfg4.N = Cert.Gcn.dense (F := F) (V c main_v63) (V c main_arg7))
  (hB5 : ∀ (V : (c : Dev nD) → (b : Ref sig .tc) → Buf (Elt F) ((c : Thread nD τ).loc b)) (c : Dev nD), (dat5 (F := F) V c).arrAt 2 cfg5.N = Cert.Gcn.biasRelu2 (F := F) (V c main_v77) (V c main_v78))
  (hH6 : ∀ (V : (c : Dev nD) → (b : Ref sig .tc) → Buf (Elt F) ((c : Thread nD τ).loc b)) (c : Dev nD), (dat6 (F := F) V c).arrAt 3 cfg6.N
      = Cert.Gcn.logSoftmax (F := F) (Cert.Gcn.logits2 (F := F) (V c main_v91) (V c main_arg9) (V c main_v92)))

include hD0 hB1 hD2 hB3 hD4 hB5 hH6

set_option maxHeartbeats 4000000 in
/-- The result buffer after the last launch holds the network of the launch memory's arguments. -/
theorem kernel_value : W14 m ρ c (Proc.devRef .tc main_v93)
    = Cert.Gcn.net (m ((c : Thread nD τ).loc main_arg0)) (m ((c : Thread nD τ).loc main_arg1)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  -- the first layer
  have e32 : W4 m ρ c (Proc.devRef .tc main_v32) = Cert.Gcn.dense (m ((c : Thread nD τ).loc main_arg0)) (m ((c : Thread nD τ).loc main_arg3)) := by
    refine (W4_arr m ρ c 2).trans ((hD0 (V3 m ρ) c).trans ?_)
    show Cert.Gcn.dense (W3 m ρ c (Proc.devRef .tc main_arg0)) (W3 m ρ c (Proc.devRef .tc main_arg3)) = _
    rw [k3 m ρ c main_arg0, k3 m ρ c main_arg3]
  have e45 : W5 m ρ c (Proc.devRef .tc main_v45) = Cert.Gcn.agg (Cert.Gcn.dense (m ((c : Thread nD τ).loc main_arg0)) (m ((c : Thread nD τ).loc main_arg3))) (Cert.Gcn.rowIdx (m ((c : Thread nD τ).loc main_arg1))) (Cert.Gcn.colIdx (m ((c : Thread nD τ).loc main_arg1))) (Cert.Gcn.norm (Cert.Gcn.rowIdx (m ((c : Thread nD τ).loc main_arg1))) (Cert.Gcn.colIdx (m ((c : Thread nD τ).loc main_arg1)))) := by
    rw [w5_agg, e32, (carry_r4 m ρ c), (carry_c4 m ρ c), (carry_n4 m ρ c)]
  have e46 : W5 m ρ c (Proc.devRef .tc main_v46) = (broadcastInDim Cert.ReferenceIdeal.S1x128 ![1] Cert.ReferenceIdeal.Facts₀.bcast_S128_S1x128_1 (m ((c : Thread nD τ).loc main_arg4))) := by
    rw [w5_bias, s4 m ρ c main_arg4, k3 m ρ c main_arg4]
  have e47 : W6 m ρ c (Proc.devRef .tc main_v47) = (Cert.Gcn.layer (m ((c : Thread nD τ).loc main_arg0)) (m ((c : Thread nD τ).loc main_arg3)) (m ((c : Thread nD τ).loc main_arg4)) (m ((c : Thread nD τ).loc main_arg1))) := by
    refine (W6_arr m ρ c 2).trans ((hB1 (V5 m ρ) c).trans ?_)
    show Cert.Gcn.biasRelu2 (W5 m ρ c (Proc.devRef .tc main_v45)) (W5 m ρ c (Proc.devRef .tc main_v46)) = _
    rw [e45, e46]
    rfl
  -- the second layer
  have e48 : W7 m ρ c (Proc.devRef .tc main_v48) = Cert.Gcn.dense (Cert.Gcn.layer (m ((c : Thread nD τ).loc main_arg0)) (m ((c : Thread nD τ).loc main_arg3)) (m ((c : Thread nD τ).loc main_arg4)) (m ((c : Thread nD τ).loc main_arg1))) (m ((c : Thread nD τ).loc main_arg5)) := by
    refine (W7_arr m ρ c 2).trans ((hD2 (V6 m ρ) c).trans ?_)
    show Cert.Gcn.dense (W6 m ρ c (Proc.devRef .tc main_v47)) (W6 m ρ c (Proc.devRef .tc main_arg5)) = _
    rw [e47, (carry_a5 m ρ c)]
  have e61 : W8 m ρ c (Proc.devRef .tc main_v61) = Cert.Gcn.agg (Cert.Gcn.dense (Cert.Gcn.layer (m ((c : Thread nD τ).loc main_arg0)) (m ((c : Thread nD τ).loc main_arg3)) (m ((c : Thread nD τ).loc main_arg4)) (m ((c : Thread nD τ).loc main_arg1))) (m ((c : Thread nD τ).loc main_arg5))) (Cert.Gcn.rowIdx (m ((c : Thread nD τ).loc main_arg1))) (Cert.Gcn.colIdx (m ((c : Thread nD τ).loc main_arg1))) (Cert.Gcn.norm (Cert.Gcn.rowIdx (m ((c : Thread nD τ).loc main_arg1))) (Cert.Gcn.colIdx (m ((c : Thread nD τ).loc main_arg1)))) := by
    rw [w8_agg, e48, (carry_r7 m ρ c), (carry_c7 m ρ c), (carry_n7 m ρ c)]
  have e62 : W8 m ρ c (Proc.devRef .tc main_v62) = (broadcastInDim Cert.ReferenceIdeal.S1x128 ![1] Cert.ReferenceIdeal.Facts₀.bcast_S128_S1x128_1 (m ((c : Thread nD τ).loc main_arg6))) := by
    rw [w8_bias, (carry_a6 m ρ c)]
  have e63 : W9 m ρ c (Proc.devRef .tc main_v63) = (Cert.Gcn.layer (Cert.Gcn.layer (m ((c : Thread nD τ).loc main_arg0)) (m ((c : Thread nD τ).loc main_arg3)) (m ((c : Thread nD τ).loc main_arg4)) (m ((c : Thread nD τ).loc main_arg1))) (m ((c : Thread nD τ).loc main_arg5)) (m ((c : Thread nD τ).loc main_arg6)) (m ((c : Thread nD τ).loc main_arg1))) := by
    refine (W9_arr m ρ c 2).trans ((hB3 (V8 m ρ) c).trans ?_)
    show Cert.Gcn.biasRelu2 (W8 m ρ c (Proc.devRef .tc main_v61)) (W8 m ρ c (Proc.devRef .tc main_v62)) = _
    rw [e61, e62]
    rfl
  -- the third layer
  have e64 : W10 m ρ c (Proc.devRef .tc main_v64) = Cert.Gcn.dense (Cert.Gcn.layer (Cert.Gcn.layer (m ((c : Thread nD τ).loc main_arg0)) (m ((c : Thread nD τ).loc main_arg3)) (m ((c : Thread nD τ).loc main_arg4)) (m ((c : Thread nD τ).loc main_arg1))) (m ((c : Thread nD τ).loc main_arg5)) (m ((c : Thread nD τ).loc main_arg6)) (m ((c : Thread nD τ).loc main_arg1))) (m ((c : Thread nD τ).loc main_arg7)) := by
    refine (W10_arr m ρ c 2).trans ((hD4 (V9 m ρ) c).trans ?_)
    show Cert.Gcn.dense (W9 m ρ c (Proc.devRef .tc main_v63)) (W9 m ρ c (Proc.devRef .tc main_arg7)) = _
    rw [e63, (carry_a7 m ρ c)]
  have e77 : W11 m ρ c (Proc.devRef .tc main_v77) = Cert.Gcn.agg (Cert.Gcn.dense (Cert.Gcn.layer (Cert.Gcn.layer (m ((c : Thread nD τ).loc main_arg0)) (m ((c : Thread nD τ).loc main_arg3)) (m ((c : Thread nD τ).loc main_arg4)) (m ((c : Thread nD τ).loc main_arg1))) (m ((c : Thread nD τ).loc main_arg5)) (m ((c : Thread nD τ).loc main_arg6)) (m ((c : Thread nD τ).loc main_arg1))) (m ((c : Thread nD τ).loc main_arg7))) (Cert.Gcn.rowIdx (m ((c : Thread nD τ).loc main_arg1))) (Cert.Gcn.colIdx (m ((c : Thread nD τ).loc main_arg1))) (Cert.Gcn.norm (Cert.Gcn.rowIdx (m ((c : Thread nD τ).loc main_arg1))) (Cert.Gcn.colIdx (m ((c : Thread nD τ).loc main_arg1)))) := by
    rw [w11_agg, e64, (carry_r10 m ρ c), (carry_c10 m ρ c), (carry_n10 m ρ c)]
  have e78 : W11 m ρ c (Proc.devRef .tc main_v78) = (broadcastInDim Cert.ReferenceIdeal.S1x128 ![1] Cert.ReferenceIdeal.Facts₀.bcast_S128_S1x128_1 (m ((c : Thread nD τ).loc main_arg8))) := by
    rw [w11_bias, (carry_a8 m ρ c)]
  have e79 : W12 m ρ c (Proc.devRef .tc main_v79) = (Cert.Gcn.layer (Cert.Gcn.layer (Cert.Gcn.layer (m ((c : Thread nD τ).loc main_arg0)) (m ((c : Thread nD τ).loc main_arg3)) (m ((c : Thread nD τ).loc main_arg4)) (m ((c : Thread nD τ).loc main_arg1))) (m ((c : Thread nD τ).loc main_arg5)) (m ((c : Thread nD τ).loc main_arg6)) (m ((c : Thread nD τ).loc main_arg1))) (m ((c : Thread nD τ).loc main_arg7)) (m ((c : Thread nD τ).loc main_arg8)) (m ((c : Thread nD τ).loc main_arg1))) := by
    refine (W12_arr m ρ c 2).trans ((hB5 (V11 m ρ) c).trans ?_)
    show Cert.Gcn.biasRelu2 (W11 m ρ c (Proc.devRef .tc main_v77)) (W11 m ρ c (Proc.devRef .tc main_v78)) = _
    rw [e77, e78]
    rfl
  -- the graph averages and the scores
  have e91 : W13 m ρ c (Proc.devRef .tc main_v91) = Cert.Gcn.pool (Cert.Gcn.layer (Cert.Gcn.layer (Cert.Gcn.layer (m ((c : Thread nD τ).loc main_arg0)) (m ((c : Thread nD τ).loc main_arg3)) (m ((c : Thread nD τ).loc main_arg4)) (m ((c : Thread nD τ).loc main_arg1))) (m ((c : Thread nD τ).loc main_arg5)) (m ((c : Thread nD τ).loc main_arg6)) (m ((c : Thread nD τ).loc main_arg1))) (m ((c : Thread nD τ).loc main_arg7)) (m ((c : Thread nD τ).loc main_arg8)) (m ((c : Thread nD τ).loc main_arg1))) (m ((c : Thread nD τ).loc main_arg2)) := by
    rw [w13_pool, e79, (carry_a2 m ρ c)]
  have e92 : W13 m ρ c (Proc.devRef .tc main_v92) = (broadcastInDim Cert.ReferenceIdeal.S1x10 ![1] Cert.ReferenceIdeal.Facts₀.bcast_S10_S1x10_1 (m ((c : Thread nD τ).loc main_arg10))) := by
    rw [w13_bias, (carry_a10 m ρ c)]
  refine (W14_arr m ρ c 3).trans ((hH6 (V13 m ρ) c).trans ?_)
  show Cert.Gcn.logSoftmax (Cert.Gcn.logits2 (W13 m ρ c (Proc.devRef .tc main_v91)) (W13 m ρ c (Proc.devRef .tc main_arg9)) (W13 m ρ c (Proc.devRef .tc main_v92))) = _
  rw [e91, (carry_a9 m ρ c), e92]
  rfl

end Value

end Cert.KernelIdeal.Chain

end
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.RegionDense.lean ====
/-
  The three dense layers' products, block by block.

  Three launches run the same kernel: the grid has ten points; at point `t` the first window holds rows
  `5000·t … 5000·t + 4999` of a `50000 × 128` array of node features, the second window holds the whole `128 × 128`
  weight matrix at every point, and the third window is the block of the same 5000 rows of the `50000 × 128` result.
  The body narrows both loaded blocks to a shorter float format — no change at the ideal values —, multiplies the
  `5000 × 128` block by the matrix into a zero accumulator, and stores the product over the whole output block.

  At the ideal values the entry `(p, q)` of a block's product is `∑ k, x(p, k) · w(k, q)` over `k < 128`, where `x` is the
  block of features and `w` the matrix; the entry `(i, j)` of the specification `dense h w` (the host's general
  contraction of axis 1 of `h` with axis 0 of `w`) is `∑ k, h(i, k) · w(k, j)`. Row `p` of block `t` is row
  `i = 5000·t + p` of the array, and the matrix's block is the matrix, so what point `t` writes back is block `t` of
  `dense h w`. Every row `i < 50000` lies in the block of point `i / 5000`, so the ten blocks cover the array, and the
  array after the launch is `dense h w`.

  The statements about single entries are made once, over variables; each launch then has its own copy of the
  block-to-array steps, over its own windows and arrays.
-/
import proofs.«157506_j28080496181754_1_alg».proof.Proof.Gen.KernelIdeal.Frame
import proofs.«157506_j28080496181754_1_alg».proof.Proof.Spec
import proofs.«157506_j28080496181754_1_alg».proof.Proof.LibMatmul
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

set_option maxRecDepth 16384
open scoped BigOperators

noncomputable section

namespace Cert.KernelIdeal.Regions

open Cert.KernelIdeal Cert.KernelIdeal.Gen Idealize.ShloMosaic Idealize.ShloMosaic.TcCoe Idealize.SL.Sem
open Idealize.ShloMosaic.ValueIdx

variable [Cert.ReferenceIdeal.Facts]

/-! ## Single entries -/

/-- The offsets of an access to a whole buffer are zero on both axes. -/
theorem zeroOffsets : (![0, 0] : Fin 2 → Nat) = fun _ => 0 := funext fun a => by fin_cases a <;> rfl

/-- Entry `(p, q)` of the first launch's stored block: the narrowing of the two loaded blocks is the identity at the
    ideal values, and the product into the zero accumulator is the sum over `k` of `x(p, k) · w(k, q)`. -/
theorem blockProduct0_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) :=
  Cert.MatOps.matmul_plain_zero_apply (M := 5000) (K := 128) (N := 128) none x0 x1 p q

/-- The second launch first recasts the feature block to its own shape, which changes nothing. -/
theorem blockProduct2_eq (x0 : Vec Ideal S5000x128 .f32) (x1 : Vec Ideal S128x128 .f32) :
    k2_pay1 (F := Ideal) x0 x1 = k0_pay1 (F := Ideal) x0 x1 := by
  unfold k2_pay1 k0_pay1
  simp only [shapeCast_self]

/-- So does the third. -/
theorem blockProduct4_eq (x0 : Vec Ideal S5000x128 .f32) (x1 : Vec Ideal S128x128 .f32) :
    k4_pay1 (F := Ideal) x0 x1 = k0_pay1 (F := Ideal) x0 x1 := by
  unfold k4_pay1 k0_pay1
  simp only [shapeCast_self]

/-- Entry `(p, q)` of the second launch's stored block. -/
theorem blockProduct2_apply (x0 : Vec Ideal S5000x128 .f32) (x1 : Vec Ideal S128x128 .f32) (p : Fin 5000) (q : Fin 128) :
    k2_pay1 (F := Ideal) x0 x1 (ix2 p q) = ∑ k : Fin 128, x0 (ix2 p k) * x1 (ix2 k q) :=
  (congrFun (blockProduct2_eq x0 x1) (ix2 p q)).trans (blockProduct0_apply x0 x1 p q)

/-- Entry `(p, q)` of the third launch's stored block. -/
theorem blockProduct4_apply (x0 : Vec Ideal S5000x128 .f32) (x1 : Vec Ideal S128x128 .f32) (p : Fin 5000) (q : Fin 128) :
    k4_pay1 (F := Ideal) x0 x1 (ix2 p q) = ∑ k : Fin 128, x0 (ix2 p k) * x1 (ix2 k q) :=
  (congrFun (blockProduct4_eq x0 x1) (ix2 p q)).trans (blockProduct0_apply x0 x1 p q)

/-- Entry `(i, j)` of the specification: the sum over `k` of `h(i, k) · w(k, j)`. -/
theorem dense_apply (h : Cert.Gcn.Arr Ideal Cert.ReferenceIdeal.S50000x128 .f32) (w : Cert.Gcn.Arr Ideal Cert.ReferenceIdeal.S128x128 .f32)
    (i : Fin 50000) (j : Fin 128) :
    Cert.Gcn.dense (F := Ideal) h w (ix2 i j) = ∑ k : Fin 128, h (ix2 i k) * w (ix2 k j) :=
  Cert.MatOps.dotGeneral_plain_apply (M := 50000) (K := 128) (N := 128) none h w i j

variable (V : (c : Dev nD) → (b : Ref sig .tc) → Buf (Elt Ideal) ((c : Thread nD τ).loc b)) (c : Dev nD)

/-! ## The first launch -/

/-- The windows' block indices at grid point `t`: the feature window and the output window sit at block `(t, 0)`,
    the weight window at block `(0, 0)`. Decided over the ten points. -/
theorem blockIndices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the feature block at point `t` is row `r = 5000·t + p` of the feature array. -/
theorem featureRows0 (t : Fin cfg0.N) (p : Fin 5000) (k : Fin 128) (r : Fin 50000) (hr : r.val = t.val * 5000 + p.val) :
    iblk0 (F := Ideal) V c 0 t (ix2 p k) = V c main_arg0 (ix2 r k) := by
  obtain ⟨e0, e1, -, -, -, -⟩ := blockIndices0 t
  show V c main_arg0 (((cfg0.win 0).blk t).view.emb (ix2 p k)) = V c main_arg0 (ix2 r k)
  refine congrArg _ ?_
  funext a; apply Fin.ext
  match a with
  | ⟨0, _⟩ => show win0_0.index t (0 : Fin 2) * 5000 + 1 * p.val = r.val; omega
  | ⟨1, _⟩ => show win0_0.index t (1 : Fin 2) * 128 + 1 * k.val = k.val; omega

/-- The weight window's block at every point is the whole weight matrix. -/
theorem weightBlock0 (t : Fin cfg0.N) (k : Fin 128) (q : Fin 128) :
    iblk0 (F := Ideal) V c 1 t (ix2 k q) = V c main_arg3 (ix2 k q) := by
  obtain ⟨-, -, e2, e3, -, -⟩ := blockIndices0 t
  show V c main_arg3 (((cfg0.win 1).blk t).view.emb (ix2 k q)) = V c main_arg3 (ix2 k q)
  refine congrArg _ ?_
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- What point `t` writes back is block `t` of the product of the feature array and the weight matrix: entry `(p, q)`
    of the stored block and entry `(5000·t + p, q)` of the product are the same sum, term by term. -/
theorem writtenBack0 (t : Fin cfg0.N) :
    (dat0 (F := Ideal) V c).flushed 2 t = ((cfg0.win 2).blk t).view.read (Elt Ideal) (Cert.Gcn.dense (F := Ideal) (V c main_arg0) (V c main_arg3)) := by
  show (cfg0.win 2).cut (grid0.coords t) ((dat0 V c).after 2 t) = _
  rw [after0_2]
  unfold out0_2
  rw [View.canon_unit_zero zeroOffsets]
  simp only [View.ld_unit_zero (S := S5000x128) zeroOffsets, View.ld_unit_zero (S := S128x128) zeroOffsets]
  obtain ⟨-, -, -, -, e4, e5⟩ := blockIndices0 t
  have ht : t.val < 10 := lt_of_lt_of_eq t.isLt N_0
  funext j
  obtain ⟨p, q, rfl⟩ : ∃ (p : Fin 5000) (q : Fin 128), j = ix2 p q := ⟨j 0, j 1, eq_ix2 j⟩
  have hr : t.val * 5000 + p.val < 50000 := by omega
  have hemb : ((cfg0.win 2).blk t).view.emb (ix2 p q) = ix2 (⟨t.val * 5000 + p.val, hr⟩ : Fin 50000) q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  show k0_pay1 (iblk0 V c 0 t) (iblk0 V c 1 t) (ix2 p q) = Cert.Gcn.dense (F := Ideal) (V c main_arg0) (V c main_arg3) (((cfg0.win 2).blk t).view.emb (ix2 p q))
  rw [hemb]
  refine (blockProduct0_apply (iblk0 V c 0 t) (iblk0 V c 1 t) p q).trans ?_
  refine Eq.trans ?_ (dense_apply (V c main_arg0) (V c main_arg3) ⟨t.val * 5000 + p.val, hr⟩ q).symm
  refine Finset.sum_congr rfl fun k _ => ?_
  rw [featureRows0 V c t p k ⟨t.val * 5000 + p.val, hr⟩ rfl, weightBlock0 V c t k q]

/-- An entry of the output array is in point `t`'s block iff each coordinate is in the block's range on its axis. -/
theorem mem_outBlock0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v32).slice (win0_2.rect t)).set ↔ _
  rw [View.set_slice_whole, Rect.mem_set_unit]
  exact Iff.rfl

/-- Every entry of the output array is in some point's block: row `r` is in the block of point `r / 5000`. -/
theorem rowCovered0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  let t : Fin cfg0.N := ⟨(i 0).val / 5000, lt_of_lt_of_eq (by omega) N_0.symm⟩
  obtain ⟨-, -, -, -, e4, e5⟩ := blockIndices0 t
  have e4' : win0_2.index t (0 : Fin 2) = (i 0).val / 5000 := e4
  refine ⟨t, flush0_2 t, ?_⟩
  rw [mem_outBlock0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the first launch the output array is the product of the feature array and the weight matrix. -/
theorem dense0 : (dat0 (F := Ideal) V c).arrAt 2 cfg0.N = Cert.Gcn.dense (F := Ideal) (V c main_arg0) (V c main_arg3) :=
  (dat0 (F := Ideal) V c).arrAt_eq_of_cover 2 _ (fun t _ => writtenBack0 V c t) rowCovered0

/-! ## The second launch -/

/-- The windows' block indices at grid point `t`: the feature window and the output window sit at block `(t, 0)`,
    the weight window at block `(0, 0)`. Decided over the ten points. -/
theorem blockIndices2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Row `p` of the feature block at point `t` is row `r = 5000·t + p` of the feature array. -/
theorem featureRows2 (t : Fin cfg2.N) (p : Fin 5000) (k : Fin 128) (r : Fin 50000) (hr : r.val = t.val * 5000 + p.val) :
    iblk2 (F := Ideal) V c 0 t (ix2 p k) = V c main_v47 (ix2 r k) := by
  obtain ⟨e0, e1, -, -, -, -⟩ := blockIndices2 t
  show V c main_v47 (((cfg2.win 0).blk t).view.emb (ix2 p k)) = V c main_v47 (ix2 r k)
  refine congrArg _ ?_
  funext a; apply Fin.ext
  match a with
  | ⟨0, _⟩ => show win2_0.index t (0 : Fin 2) * 5000 + 1 * p.val = r.val; omega
  | ⟨1, _⟩ => show win2_0.index t (1 : Fin 2) * 128 + 1 * k.val = k.val; omega

/-- The weight window's block at every point is the whole weight matrix. -/
theorem weightBlock2 (t : Fin cfg2.N) (k : Fin 128) (q : Fin 128) :
    iblk2 (F := Ideal) V c 1 t (ix2 k q) = V c main_arg5 (ix2 k q) := by
  obtain ⟨-, -, e2, e3, -, -⟩ := blockIndices2 t
  show V c main_arg5 (((cfg2.win 1).blk t).view.emb (ix2 k q)) = V c main_arg5 (ix2 k q)
  refine congrArg _ ?_
  funext a; apply Fin.ext
  match a with
  | ⟨0, _⟩ => show win2_1.index t (0 : Fin 2) * 128 + 1 * k.val = k.val; omega
  | ⟨1, _⟩ => show win2_1.index t (1 : Fin 2) * 128 + 1 * q.val = q.val; omega

/-- What point `t` writes back is block `t` of the product of the feature array and the weight matrix: entry `(p, q)`
    of the stored block and entry `(5000·t + p, q)` of the product are the same sum, term by term. -/
theorem writtenBack2 (t : Fin cfg2.N) :
    (dat2 (F := Ideal) V c).flushed 2 t = ((cfg2.win 2).blk t).view.read (Elt Ideal) (Cert.Gcn.dense (F := Ideal) (V c main_v47) (V c main_arg5)) := by
  show (cfg2.win 2).cut (grid2.coords t) ((dat2 V c).after 2 t) = _
  rw [after2_2]
  unfold out2_2
  rw [View.canon_unit_zero zeroOffsets]
  simp only [View.ld_unit_zero (S := S5000x128) zeroOffsets, View.ld_unit_zero (S := S128x128) zeroOffsets]
  obtain ⟨-, -, -, -, e4, e5⟩ := blockIndices2 t
  have ht : t.val < 10 := lt_of_lt_of_eq t.isLt N_2
  funext j
  obtain ⟨p, q, rfl⟩ : ∃ (p : Fin 5000) (q : Fin 128), j = ix2 p q := ⟨j 0, j 1, eq_ix2 j⟩
  have hr : t.val * 5000 + p.val < 50000 := by omega
  have hemb : ((cfg2.win 2).blk t).view.emb (ix2 p q) = ix2 (⟨t.val * 5000 + p.val, hr⟩ : Fin 50000) q := by
    funext a; apply Fin.ext
    match a with
    | ⟨0, _⟩ => show win2_2.index t (0 : Fin 2) * 5000 + 1 * p.val = t.val * 5000 + p.val; omega
    | ⟨1, _⟩ => show win2_2.index t (1 : Fin 2) * 128 + 1 * q.val = q.val; omega
  show k2_pay1 (iblk2 V c 0 t) (iblk2 V c 1 t) (ix2 p q) = Cert.Gcn.dense (F := Ideal) (V c main_v47) (V c main_arg5) (((cfg2.win 2).blk t).view.emb (ix2 p q))
  rw [hemb]
  refine (blockProduct2_apply (iblk2 V c 0 t) (iblk2 V c 1 t) p q).trans ?_
  refine Eq.trans ?_ (dense_apply (V c main_v47) (V c main_arg5) ⟨t.val * 5000 + p.val, hr⟩ q).symm
  refine Finset.sum_congr rfl fun k _ => ?_
  rw [featureRows2 V c t p k ⟨t.val * 5000 + p.val, hr⟩ rfl, weightBlock2 V c t k q]

/-- An entry of the output array is in point `t`'s block iff each coordinate is in the block's range on its axis. -/
theorem mem_outBlock2 (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v48).slice (win2_2.rect t)).set ↔ _
  rw [View.set_slice_whole, Rect.mem_set_unit]
  exact Iff.rfl

/-- Every entry of the output array is in some point's block: row `r` is in the block of point `r / 5000`. -/
theorem rowCovered2 (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  let t : Fin cfg2.N := ⟨(i 0).val / 5000, lt_of_lt_of_eq (by omega) N_2.symm⟩
  obtain ⟨-, -, -, -, e4, e5⟩ := blockIndices2 t
  have e4' : win2_2.index t (0 : Fin 2) = (i 0).val / 5000 := e4
  refine ⟨t, flush2_2 t, ?_⟩
  rw [mem_outBlock2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the second launch the output array is the product of the feature array and the weight matrix. -/
theorem dense2 : (dat2 (F := Ideal) V c).arrAt 2 cfg2.N = Cert.Gcn.dense (F := Ideal) (V c main_v47) (V c main_arg5) :=
  (dat2 (F := Ideal) V c).arrAt_eq_of_cover 2 _ (fun t _ => writtenBack2 V c t) rowCovered2

/-! ## The third launch -/

/-- The windows' block indices at grid point `t`: the feature window and the output window sit at block `(t, 0)`,
    the weight window at block `(0, 0)`. Decided over the ten points. -/
theorem blockIndices4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Row `p` of the feature block at point `t` is row `r = 5000·t + p` of the feature array. -/
theorem featureRows4 (t : Fin cfg4.N) (p : Fin 5000) (k : Fin 128) (r : Fin 50000) (hr : r.val = t.val * 5000 + p.val) :
    iblk4 (F := Ideal) V c 0 t (ix2 p k) = V c main_v63 (ix2 r k) := by
  obtain ⟨e0, e1, -, -, -, -⟩ := blockIndices4 t
  show V c main_v63 (((cfg4.win 0).blk t).view.emb (ix2 p k)) = V c main_v63 (ix2 r k)
  refine congrArg _ ?_
  funext a; apply Fin.ext
  match a with
  | ⟨0, _⟩ => show win4_0.index t (0 : Fin 2) * 5000 + 1 * p.val = r.val; omega
  | ⟨1, _⟩ => show win4_0.index t (1 : Fin 2) * 128 + 1 * k.val = k.val; omega

/-- The weight window's block at every point is the whole weight matrix. -/
theorem weightBlock4 (t : Fin cfg4.N) (k : Fin 128) (q : Fin 128) :
    iblk4 (F := Ideal) V c 1 t (ix2 k q) = V c main_arg7 (ix2 k q) := by
  obtain ⟨-, -, e2, e3, -, -⟩ := blockIndices4 t
  show V c main_arg7 (((cfg4.win 1).blk t).view.emb (ix2 k q)) = V c main_arg7 (ix2 k q)
  refine congrArg _ ?_
  funext a; apply Fin.ext
  match a with
  | ⟨0, _⟩ => show win4_1.index t (0 : Fin 2) * 128 + 1 * k.val = k.val; omega
  | ⟨1, _⟩ => show win4_1.index t (1 : Fin 2) * 128 + 1 * q.val = q.val; omega

/-- What point `t` writes back is block `t` of the product of the feature array and the weight matrix: entry `(p, q)`
    of the stored block and entry `(5000·t + p, q)` of the product are the same sum, term by term. -/
theorem writtenBack4 (t : Fin cfg4.N) :
    (dat4 (F := Ideal) V c).flushed 2 t = ((cfg4.win 2).blk t).view.read (Elt Ideal) (Cert.Gcn.dense (F := Ideal) (V c main_v63) (V c main_arg7)) := by
  show (cfg4.win 2).cut (grid4.coords t) ((dat4 V c).after 2 t) = _
  rw [after4_2]
  unfold out4_2
  rw [View.canon_unit_zero zeroOffsets]
  simp only [View.ld_unit_zero (S := S5000x128) zeroOffsets, View.ld_unit_zero (S := S128x128) zeroOffsets]
  obtain ⟨-, -, -, -, e4, e5⟩ := blockIndices4 t
  have ht : t.val < 10 := lt_of_lt_of_eq t.isLt N_4
  funext j
  obtain ⟨p, q, rfl⟩ : ∃ (p : Fin 5000) (q : Fin 128), j = ix2 p q := ⟨j 0, j 1, eq_ix2 j⟩
  have hr : t.val * 5000 + p.val < 50000 := by omega
  have hemb : ((cfg4.win 2).blk t).view.emb (ix2 p q) = ix2 (⟨t.val * 5000 + p.val, hr⟩ : Fin 50000) q := by
    funext a; apply Fin.ext
    match a with
    | ⟨0, _⟩ => show win4_2.index t (0 : Fin 2) * 5000 + 1 * p.val = t.val * 5000 + p.val; omega
    | ⟨1, _⟩ => show win4_2.index t (1 : Fin 2) * 128 + 1 * q.val = q.val; omega
  show k4_pay1 (iblk4 V c 0 t) (iblk4 V c 1 t) (ix2 p q) = Cert.Gcn.dense (F := Ideal) (V c main_v63) (V c main_arg7) (((cfg4.win 2).blk t).view.emb (ix2 p q))
  rw [hemb]
  refine (blockProduct4_apply (iblk4 V c 0 t) (iblk4 V c 1 t) p q).trans ?_
  refine Eq.trans ?_ (dense_apply (V c main_v63) (V c main_arg7) ⟨t.val * 5000 + p.val, hr⟩ q).symm
  refine Finset.sum_congr rfl fun k _ => ?_
  rw [featureRows4 V c t p k ⟨t.val * 5000 + p.val, hr⟩ rfl, weightBlock4 V c t k q]

/-- An entry of the output array is in point `t`'s block iff each coordinate is in the block's range on its axis. -/
theorem mem_outBlock4 (t : Fin cfg4.N) (i : S50000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v64).slice (win4_2.rect t)).set ↔ _
  rw [View.set_slice_whole, Rect.mem_set_unit]
  exact Iff.rfl

/-- Every entry of the output array is in some point's block: row `r` is in the block of point `r / 5000`. -/
theorem rowCovered4 (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  let t : Fin cfg4.N := ⟨(i 0).val / 5000, lt_of_lt_of_eq (by omega) N_4.symm⟩
  obtain ⟨-, -, -, -, e4, e5⟩ := blockIndices4 t
  have e4' : win4_2.index t (0 : Fin 2) = (i 0).val / 5000 := e4
  refine ⟨t, flush4_2 t, ?_⟩
  rw [mem_outBlock4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- After the third launch the output array is the product of the feature array and the weight matrix. -/
theorem dense4 : (dat4 (F := Ideal) V c).arrAt 2 cfg4.N = Cert.Gcn.dense (F := Ideal) (V c main_v63) (V c main_arg7) :=
  (dat4 (F := Ideal) V c).arrAt_eq_of_cover 2 _ (fun t _ => writtenBack4 V c t) rowCovered4

end Cert.KernelIdeal.Regions
end
-- ==== Proof.RegionBias.lean ====
/-
  Regions 1, 3 and 5 of the kernel's program: add a bias row to every row of a [50000, 128] array and clamp at zero.

  Each of the three regions walks ten grid points.  At point `t` it holds block `t` of the array (rows 5000·t … 5000·t + 4999,
  all 128 columns) and the whole bias row [1, 128], and writes back, as block `t` of the output array, the block whose
  entry (p, q) is  max (x(p, q) + b(0, q)) z,  where `z` is the value of the all-zero word.  The specification's
  `biasRelu2 a b` at (r, q) is  max (a(r, q) + b(0, q)) z  with the same `z`: its two broadcasts read, at (r, q), the bias
  row at (0, q) and the scalar.  Entry (p, q) of block `t` is entry (5000·t + p, q) of the array, so what point `t` writes
  back is block `t` of `biasRelu2 a b`; row `r` lies in block `r / 5000`, so the ten blocks cover the array and the output
  array ends holding `biasRelu2 a b`.  No law of arithmetic is used: both sides are the same expression entry by entry, and
  the zero word is never evaluated.
-/
import proofs.«157506_j28080496181754_1_alg».proof.Proof.Gen.KernelIdeal.Frame
import proofs.«157506_j28080496181754_1_alg».proof.Proof.Spec
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Regions
open Cert.KernelIdeal Cert.KernelIdeal.Gen Idealize.ShloMosaic Idealize.ShloMosaic.TcCoe Idealize.SL.Sem
open Idealize.ShloMosaic.ValueIdx

variable [Cert.ReferenceIdeal.Facts]

namespace Bias

/-! ## One entry of the body's result and of the specification -/

/-- The value of the all-zero 32-bit word: the level both sides clamp at. It is never evaluated. -/
abbrev zeroWord : Ideal .f32 := Scalar.ofBits (F := Ideal) .f32 0x00000000#32

/-- The body's result at (p, q): the block's entry plus the bias row's entry of column q, clamped at the zero word's value.
    The two casts are of a shape to itself, and the row broadcast reads row 0. -/
theorem clampedSum_block_apply (x0 : Vec Ideal S5000x128 .f32) (x1 : Vec Ideal S1x128 .f32) (p : Fin 5000) (q : Fin 128) :
    k1_pay1 (F := Ideal) x0 x1 (ix2 p q) = max (x0 (ix2 p q) + x1 (ix2 (0 : Fin 1) q)) zeroWord := by
  unfold k1_pay1
  rw [shapeCast_self, shapeCast_self]
  show max (x0 (ix2 p q) + broadcastTo S5000x128 x1 broadcasts_S1x128_S5000x128 (ix2 p q)) zeroWord = _
  rw [broadcastTo_1b_ab_apply]

/-- The bodies of regions 3 and 5 are the body of region 1. -/
theorem sameBody3 (x0 : Vec Ideal S5000x128 .f32) (x1 : Vec Ideal S1x128 .f32) :
    k3_pay1 (F := Ideal) x0 x1 = k1_pay1 (F := Ideal) x0 x1 := rfl
theorem sameBody5 (x0 : Vec Ideal S5000x128 .f32) (x1 : Vec Ideal S1x128 .f32) :
    k5_pay1 (F := Ideal) x0 x1 = k1_pay1 (F := Ideal) x0 x1 := rfl

/-- The bias row broadcast over the 50000 rows reads, at (r, q), the row's entry of column q. -/
theorem rowBroadcast_apply (b2 : Cert.Gcn.Arr Ideal Cert.ReferenceIdeal.S1x128 .f32) (r : Fin 50000) (q : Fin 128) :
    broadcastInDim Cert.ReferenceIdeal.S50000x128 ![0, 1] Cert.ReferenceIdeal.Facts₀.bcast_S1x128_S50000x128_0_1 b2 (ix2 r q)
      = b2 (ix2 (0 : Fin 1) q) := by
  refine broadcastInDim_apply _ _ b2 (ix2 r q) (ix2 (0 : Fin 1) q) fun ax => ?_
  match ax with
  | ⟨0, _⟩ => rfl
  | ⟨1, _⟩ => rfl

/-- The specification at (r, q): the array's entry plus the bias row's entry of column q, clamped at the zero word's
    value (the broadcast scalar constant reads that value everywhere). -/
theorem biasRelu2_apply (a : Cert.Gcn.Arr Ideal Cert.ReferenceIdeal.S50000x128 .f32) (b2 : Cert.Gcn.Arr Ideal Cert.ReferenceIdeal.S1x128 .f32)
    (r : Fin 50000) (q : Fin 128) :
    Cert.Gcn.biasRelu2 (F := Ideal) a b2 (ix2 r q) = max (a (ix2 r q) + b2 (ix2 (0 : Fin 1) q)) zeroWord := by
  unfold Cert.Gcn.biasRelu2
  rw [maximumf_apply, addf_apply, rowBroadcast_apply]
  rfl

/-- A block of the clamped sum: when the block `x0` holds the entries of `a` that `e` names, `e` keeping the column, and `x1`
    is the bias row, the body's result on the block is the specification of the whole arrays at the named entries. -/
theorem clampedSum_block_eq (a : Cert.Gcn.Arr Ideal Cert.ReferenceIdeal.S50000x128 .f32) (b2 : Cert.Gcn.Arr Ideal Cert.ReferenceIdeal.S1x128 .f32)
    (x0 : Vec Ideal S5000x128 .f32) (x1 : Vec Ideal S1x128 .f32) (e : S5000x128.Idx → S50000x128.Idx)
    (h0 : ∀ j, x0 j = a (e j)) (h1 : x1 = b2) (he : ∀ j, (e j 1).val = (j 1).val) (j : S5000x128.Idx) :
    k1_pay1 (F := Ideal) x0 x1 j = Cert.Gcn.biasRelu2 (F := Ideal) a b2 (e j) := by
  obtain ⟨p, q, rfl⟩ : ∃ (p : Fin 5000) (q : Fin 128), j = ix2 p q := ⟨j 0, j 1, eq_ix2 j⟩
  obtain ⟨r, q', hr⟩ : ∃ (r : Fin 50000) (q' : Fin 128), e (ix2 p q) = ix2 r q' := ⟨e (ix2 p q) 0, e (ix2 p q) 1, eq_ix2 _⟩
  have hq : q' = q := Fin.ext (by have h := he (ix2 p q); rw [hr] at h; exact h)
  subst hq
  rw [clampedSum_block_apply, h0, h1, hr, biasRelu2_apply]

/-- The origin of a whole-buffer access. -/
theorem origin_eq_zero : (![0, 0] : Fin 2 → Nat) = fun _ => 0 := funext fun a => by fin_cases a <;> rfl

variable (V : (c : Dev nD) → (b : Ref sig .tc) → Buf (Elt Ideal) ((c : Thread nD τ).loc b)) (c : Dev nD)

/-! ## Region 1 -/

/-- The block indices at point `t`: the input and the output block are block `t` of their arrays (row index `t`, column index
    0), and the bias window is the whole row (index (0, 0)); decided over the ten points. -/
theorem blocks1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the specification of the arrays as the region finds them: entry (p, q) of
    the input block is entry (5000·t + p, q) of its array, the bias window is the whole bias row, and the output block sits
    at the same rows. -/
theorem writeBack1_eq (t : Fin cfg1.N) :
    (dat1 (F := Ideal) V c).flushed 2 t
      = ((cfg1.win 2).blk t).view.read (Elt Ideal) (Cert.Gcn.biasRelu2 (F := Ideal) (V c main_v45) (V c main_v46)) := by
  show (cfg1.win 2).cut (grid1.coords t) ((dat1 V c).after 2 t) = _
  rw [after1_2]
  unfold out1_2
  rw [View.canon_unit_zero origin_eq_zero]
  simp only [View.ld_unit_zero (S := S5000x128) origin_eq_zero, View.ld_unit_zero (S := S1x128) origin_eq_zero]
  obtain ⟨e0, e1, e2, e3, e4, e5⟩ := blocks1 t
  funext j
  show k1_pay1 (F := Ideal) (iblk1 V c 0 t) (iblk1 V c 1 t) j
    = Cert.Gcn.biasRelu2 (F := Ideal) (V c main_v45) (V c main_v46) (((cfg1.win 2).blk t).view.emb j)
  have h0 : ∀ y : S5000x128.Idx, iblk1 V c 0 t y = V c main_v45 (((cfg1.win 2).blk t).view.emb y) := by
    intro y
    show V c main_v45 (((cfg1.win 0).blk t).view.emb y) = V c main_v45 (((cfg1.win 2).blk t).view.emb y)
    refine congrArg (V c main_v45) ?_
    funext a; apply Fin.ext
    match a with
    | ⟨0, _⟩ => show win1_0.index t (0 : Fin 2) * 5000 + 1 * (y 0).val = win1_2.index t (0 : Fin 2) * 5000 + 1 * (y 0).val; omega
    | ⟨1, _⟩ => show win1_0.index t (1 : Fin 2) * 128 + 1 * (y 1).val = win1_2.index t (1 : Fin 2) * 128 + 1 * (y 1).val; omega
  have h1 : iblk1 V c 1 t = V c main_v46 := by
    funext y
    show V c main_v46 (((cfg1.win 1).blk t).view.emb y) = V c main_v46 y
    refine congrArg (V c main_v46) ?_
    funext a; apply Fin.ext
    match a with
    | ⟨0, _⟩ => show win1_1.index t (0 : Fin 2) * 1 + 1 * (y 0).val = (y 0).val; omega
    | ⟨1, _⟩ => show win1_1.index t (1 : Fin 2) * 128 + 1 * (y 1).val = (y 1).val; omega
  have he : ∀ y : S5000x128.Idx, ((((cfg1.win 2).blk t).view.emb y) 1).val = (y 1).val := by
    intro y
    show win1_2.index t (1 : Fin 2) * 128 + 1 * (y 1).val = (y 1).val; omega
  exact clampedSum_block_eq (V c main_v45) (V c main_v46) (iblk1 V c 0 t) (iblk1 V c 1 t) (((cfg1.win 2).blk t).view.emb) h0 h1 he j

/-- An entry of the output array is in point `t`'s block iff each coordinate is in the block's range on its axis. -/
theorem mem_block1 (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v47).slice (win1_2.rect t)).set ↔ _
  rw [View.set_slice_whole, Rect.mem_set_unit]
  exact Iff.rfl

/-- Each of the ten row blocks is some point's output block. -/
theorem block_of_rows1 : ∀ q0 : Fin 10, ∃ t : Fin cfg1.N, win1_2.index t = ![q0.val, 0] :=
  (by decide +kernel : ∀ q0 : Fin 10, ∃ t : Fin grid1.N, win1_2.index t = ![q0.val, 0])

/-- Every entry of the output array is written back by some point: row `r` is in block `r / 5000`. -/
theorem rows_covered1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := block_of_rows1 ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_block1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-! ## Region 3 -/

/-- The block indices at point `t`: the input and the output block are block `t` of their arrays (row index `t`, column index
    0), and the bias window is the whole row (index (0, 0)); decided over the ten points. -/
theorem blocks3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the specification of the arrays as the region finds them: entry (p, q) of
    the input block is entry (5000·t + p, q) of its array, the bias window is the whole bias row, and the output block sits
    at the same rows. -/
theorem writeBack3_eq (t : Fin cfg3.N) :
    (dat3 (F := Ideal) V c).flushed 2 t
      = ((cfg3.win 2).blk t).view.read (Elt Ideal) (Cert.Gcn.biasRelu2 (F := Ideal) (V c main_v61) (V c main_v62)) := by
  show (cfg3.win 2).cut (grid3.coords t) ((dat3 V c).after 2 t) = _
  rw [after3_2]
  unfold out3_2
  rw [View.canon_unit_zero origin_eq_zero]
  simp only [View.ld_unit_zero (S := S5000x128) origin_eq_zero, View.ld_unit_zero (S := S1x128) origin_eq_zero]
  rw [sameBody3]
  obtain ⟨e0, e1, e2, e3, e4, e5⟩ := blocks3 t
  funext j
  show k1_pay1 (F := Ideal) (iblk3 V c 0 t) (iblk3 V c 1 t) j
    = Cert.Gcn.biasRelu2 (F := Ideal) (V c main_v61) (V c main_v62) (((cfg3.win 2).blk t).view.emb j)
  have h0 : ∀ y : S5000x128.Idx, iblk3 V c 0 t y = V c main_v61 (((cfg3.win 2).blk t).view.emb y) := by
    intro y
    show V c main_v61 (((cfg3.win 0).blk t).view.emb y) = V c main_v61 (((cfg3.win 2).blk t).view.emb y)
    refine congrArg (V c main_v61) ?_
    funext a; apply Fin.ext
    match a with
    | ⟨0, _⟩ => show win3_0.index t (0 : Fin 2) * 5000 + 1 * (y 0).val = win3_2.index t (0 : Fin 2) * 5000 + 1 * (y 0).val; omega
    | ⟨1, _⟩ => show win3_0.index t (1 : Fin 2) * 128 + 1 * (y 1).val = win3_2.index t (1 : Fin 2) * 128 + 1 * (y 1).val; omega
  have h1 : iblk3 V c 1 t = V c main_v62 := by
    funext y
    show V c main_v62 (((cfg3.win 1).blk t).view.emb y) = V c main_v62 y
    refine congrArg (V c main_v62) ?_
    funext a; apply Fin.ext
    match a with
    | ⟨0, _⟩ => show win3_1.index t (0 : Fin 2) * 1 + 1 * (y 0).val = (y 0).val; omega
    | ⟨1, _⟩ => show win3_1.index t (1 : Fin 2) * 128 + 1 * (y 1).val = (y 1).val; omega
  have he : ∀ y : S5000x128.Idx, ((((cfg3.win 2).blk t).view.emb y) 1).val = (y 1).val := by
    intro y
    show win3_2.index t (1 : Fin 2) * 128 + 1 * (y 1).val = (y 1).val; omega
  exact clampedSum_block_eq (V c main_v61) (V c main_v62) (iblk3 V c 0 t) (iblk3 V c 1 t) (((cfg3.win 2).blk t).view.emb) h0 h1 he j

/-- An entry of the output array is in point `t`'s block iff each coordinate is in the block's range on its axis. -/
theorem mem_block3 (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v63).slice (win3_2.rect t)).set ↔ _
  rw [View.set_slice_whole, Rect.mem_set_unit]
  exact Iff.rfl

/-- Each of the ten row blocks is some point's output block. -/
theorem block_of_rows3 : ∀ q0 : Fin 10, ∃ t : Fin cfg3.N, win3_2.index t = ![q0.val, 0] :=
  (by decide +kernel : ∀ q0 : Fin 10, ∃ t : Fin grid3.N, win3_2.index t = ![q0.val, 0])

/-- Every entry of the output array is written back by some point: row `r` is in block `r / 5000`. -/
theorem rows_covered3 (i : S50000x128.Idx) : ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := block_of_rows3 ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [mem_block3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-! ## Region 5 -/

/-- The block indices at point `t`: the input and the output block are block `t` of their arrays (row index `t`, column index
    0), and the bias window is the whole row (index (0, 0)); decided over the ten points. -/
theorem blocks5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point `t` writes back is block `t` of the specification of the arrays as the region finds them: entry (p, q) of
    the input block is entry (5000·t + p, q) of its array, the bias window is the whole bias row, and the output block sits
    at the same rows. -/
theorem writeBack5_eq (t : Fin cfg5.N) :
    (dat5 (F := Ideal) V c).flushed 2 t
      = ((cfg5.win 2).blk t).view.read (Elt Ideal) (Cert.Gcn.biasRelu2 (F := Ideal) (V c main_v77) (V c main_v78)) := by
  show (cfg5.win 2).cut (grid5.coords t) ((dat5 V c).after 2 t) = _
  rw [after5_2]
  unfold out5_2
  rw [View.canon_unit_zero origin_eq_zero]
  simp only [View.ld_unit_zero (S := S5000x128) origin_eq_zero, View.ld_unit_zero (S := S1x128) origin_eq_zero]
  rw [sameBody5]
  obtain ⟨e0, e1, e2, e3, e4, e5⟩ := blocks5 t
  funext j
  show k1_pay1 (F := Ideal) (iblk5 V c 0 t) (iblk5 V c 1 t) j
    = Cert.Gcn.biasRelu2 (F := Ideal) (V c main_v77) (V c main_v78) (((cfg5.win 2).blk t).view.emb j)
  have h0 : ∀ y : S5000x128.Idx, iblk5 V c 0 t y = V c main_v77 (((cfg5.win 2).blk t).view.emb y) := by
    intro y
    show V c main_v77 (((cfg5.win 0).blk t).view.emb y) = V c main_v77 (((cfg5.win 2).blk t).view.emb y)
    refine congrArg (V c main_v77) ?_
    funext a; apply Fin.ext
    match a with
    | ⟨0, _⟩ => show win5_0.index t (0 : Fin 2) * 5000 + 1 * (y 0).val = win5_2.index t (0 : Fin 2) * 5000 + 1 * (y 0).val; omega
    | ⟨1, _⟩ => show win5_0.index t (1 : Fin 2) * 128 + 1 * (y 1).val = win5_2.index t (1 : Fin 2) * 128 + 1 * (y 1).val; omega
  have h1 : iblk5 V c 1 t = V c main_v78 := by
    funext y
    show V c main_v78 (((cfg5.win 1).blk t).view.emb y) = V c main_v78 y
    refine congrArg (V c main_v78) ?_
    funext a; apply Fin.ext
    match a with
    | ⟨0, _⟩ => show win5_1.index t (0 : Fin 2) * 1 + 1 * (y 0).val = (y 0).val; omega
    | ⟨1, _⟩ => show win5_1.index t (1 : Fin 2) * 128 + 1 * (y 1).val = (y 1).val; omega
  have he : ∀ y : S5000x128.Idx, ((((cfg5.win 2).blk t).view.emb y) 1).val = (y 1).val := by
    intro y
    show win5_2.index t (1 : Fin 2) * 128 + 1 * (y 1).val = (y 1).val; omega
  exact clampedSum_block_eq (V c main_v77) (V c main_v78) (iblk5 V c 0 t) (iblk5 V c 1 t) (((cfg5.win 2).blk t).view.emb) h0 h1 he j

/-- An entry of the output array is in point `t`'s block iff each coordinate is in the block's range on its axis. -/
theorem mem_block5 (t : Fin cfg5.N) (i : S50000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v79).slice (win5_2.rect t)).set ↔ _
  rw [View.set_slice_whole, Rect.mem_set_unit]
  exact Iff.rfl

/-- Each of the ten row blocks is some point's output block. -/
theorem block_of_rows5 : ∀ q0 : Fin 10, ∃ t : Fin cfg5.N, win5_2.index t = ![q0.val, 0] :=
  (by decide +kernel : ∀ q0 : Fin 10, ∃ t : Fin grid5.N, win5_2.index t = ![q0.val, 0])

/-- Every entry of the output array is written back by some point: row `r` is in block `r / 5000`. -/
theorem rows_covered5 (i : S50000x128.Idx) : ∃ t : Fin cfg5.N, (cfg5.win 2).flush t = true ∧ i ∈ ((cfg5.win 2).blk t).view.set := by
  have hi0 : (i 0).val < 50000 := (i 0).isLt
  have hi1 : (i 1).val < 128 := (i 1).isLt
  obtain ⟨t, ht⟩ := block_of_rows5 ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [mem_block5]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 128 ≤ (i 1).val ∧ (i 1).val < win5_2.index t (1 : Fin 2) * 128 + 128; omega

end Bias

/-! ## The three output arrays -/

variable (V : (c : Dev nD) → (b : Ref sig .tc) → Buf (Elt Ideal) ((c : Thread nD τ).loc b)) (c : Dev nD)

/-- The output array of region 1 after its ten points: the bias added to every row of the input array and clamped at zero. -/
theorem bias1 : (dat1 (F := Ideal) V c).arrAt 2 cfg1.N = Cert.Gcn.biasRelu2 (F := Ideal) (V c main_v45) (V c main_v46) :=
  (dat1 (F := Ideal) V c).arrAt_eq_of_cover 2 (Cert.Gcn.biasRelu2 (F := Ideal) (V c main_v45) (V c main_v46))
    (fun t _ => Bias.writeBack1_eq V c t) Bias.rows_covered1

/-- The output array of region 3 after its ten points: the bias added to every row of the input array and clamped at zero. -/
theorem bias3 : (dat3 (F := Ideal) V c).arrAt 2 cfg3.N = Cert.Gcn.biasRelu2 (F := Ideal) (V c main_v61) (V c main_v62) :=
  (dat3 (F := Ideal) V c).arrAt_eq_of_cover 2 (Cert.Gcn.biasRelu2 (F := Ideal) (V c main_v61) (V c main_v62))
    (fun t _ => Bias.writeBack3_eq V c t) Bias.rows_covered3

/-- The output array of region 5 after its ten points: the bias added to every row of the input array and clamped at zero. -/
theorem bias5 : (dat5 (F := Ideal) V c).arrAt 2 cfg5.N = Cert.Gcn.biasRelu2 (F := Ideal) (V c main_v77) (V c main_v78) :=
  (dat5 (F := Ideal) V c).arrAt_eq_of_cover 2 (Cert.Gcn.biasRelu2 (F := Ideal) (V c main_v77) (V c main_v78))
    (fun t _ => Bias.writeBack5_eq V c t) Bias.rows_covered5

end Cert.KernelIdeal.Regions

end
-- ==== Proof.LibKeepdims.lean ====
/-
  Two layout operations of a "keep the reduced axis" column, read at an index.

  A vector of `a` numbers cast to an `[a, 1]` column keeps entry `i` at `(i, 0)`: both have row-major position `i`.
  An `[a, 1]` column broadcast to `[a, b]` copies entry `(p, 0)` along row `p`.
-/
import Idealize.ShloMosaic.Lib.Pipeline.Value
import Idealize.ShloMosaic.Lib.ValueIdx

namespace Idealize.ShloMosaic.Keepdims

open Idealize.ShloMosaic Idealize.ShloMosaic.ValueIdx

variable {α : Type}

/-- An `[a]` vector cast to an `[a, 1]` column reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

end Idealize.ShloMosaic.Keepdims
-- ==== Proof.LibRowReduce.lean ====
/-
  Reductions of a matrix of extended reals along its rows.  For `x` of shape [A, B], a reduction over axis 1 read at
  row `a` runs over the row's entries `x (a, b)`, `b < B`: a maximum started from minus infinity is the supremum of
  the row, a sum started from zero is the row's sum; the host's reductions start from a scalar initial value instead,
  and give the maximum of that value and the row's supremum, and that value plus the row's sum.  The order in which
  the entries are folded does not matter, since `max` and `+` on the extended reals commute and associate.
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.LibRowReduce

open Idealize.ShloMosaic Idealize.ShloMosaic.ValueIdx

/-- The index of the matrix over row `a` of the reduced vector, with column `b` inserted on the reduced axis,
    is `(a, b)`. -/
theorem lift_ix1 {A B : Nat} (h : (⟨2, ![A, B]⟩ : Shape).Reduces [1] ⟨1, ![A]⟩) (a : Fin A) (b : Fin B) :
    h.lift (ix1 a) b = ix2 a b := by
  funext c
  match c with
  | ⟨0, _⟩ => rfl
  | ⟨1, _⟩ => rfl

/-- A fold of `max` from `c` over finitely many extended reals is the maximum of `c` and their supremum. -/
theorem fold_max_eq_max_sup {ι : Type*} (s : Finset ι) (f : ι → EReal) (c : EReal) :
    s.fold max c f = max c (s.sup f) := by
  classical
  induction s using Finset.induction_on with
  | empty => rw [Finset.fold_empty, Finset.sup_empty, max_bot_right]
  | insert i s hi ih => rw [Finset.fold_insert hi, ih, Finset.sup_insert]; exact max_left_comm _ _ _

/-- The single-precision word of minus infinity denotes the bottom of the extended reals. -/
theorem ofBits_neg_inf_f32 : Ideal.ofBits .f32 0xFF800000#32 = ⊥ := by
  simp [Ideal.ofBits, Ideal.ieee]

/-- A host's reduction fact into a vector is also a kernel's (the vector has an axis). -/
theorem reduces_of_reducesTo {A B : Nat} (h' : (⟨2, ![A, B]⟩ : Shape).ReducesTo [1] ⟨1, ![A]⟩) :
    (⟨2, ![A, B]⟩ : Shape).Reduces [1] ⟨1, ![A]⟩ := by
  obtain ⟨h1, h2⟩ := h'
  exact ⟨h1, Nat.one_pos, h2⟩

/-- (1) The kernel's row maximum: a `maximumf` reduction along axis 1 from minus infinity, read at row `a`, is the
    supremum of that row. -/
theorem multiReduction_maximumf_row {A B : Nat} (x : FVec Ideal ⟨2, ![A, B]⟩ .f32)
    (h : (⟨2, ![A, B]⟩ : Shape).Reduces [1] ⟨1, ![A]⟩) (hφ : FKind.Formats .f32)
    (hacc : (0xFF800000#32 : BitVec 32) = 0xFF800000#32) (a : Fin A) :
    multiReduction .maximumf [1] ⟨1, ![A]⟩ x 0xFF800000#32 h hφ hacc (ix1 a)
      = Finset.univ.sup fun b : Fin B => x (ix2 a b) := by
  refine (Ideal.multiReduction_maximumf_single x _ h hφ hacc (ix1 a)).trans ?_
  refine (fold_max_eq_max_sup _ _ _).trans ?_
  rw [show FloatOps.ofBits (F := Ideal) .f32 0xFF800000#32 = (⊥ : EReal) from ofBits_neg_inf_f32, max_bot_left]
  exact congrArg (Finset.univ.sup) (funext fun b : Fin B => congrArg x (lift_ix1 h a b))

/-- (2) The kernel's row sum: an `add` reduction along axis 1, read at row `a`, is the sum of that row. -/
theorem multiReduction_add_row {A B : Nat} (x : FVec Ideal ⟨2, ![A, B]⟩ .f32)
    (h : (⟨2, ![A, B]⟩ : Shape).Reduces [1] ⟨1, ![A]⟩) (hφ : FKind.Formats .f32)
    (hacc : (0x00000000#32 : BitVec 32) = 0x00000000#32) (a : Fin A) :
    multiReduction .add [1] ⟨1, ![A]⟩ x 0x00000000#32 h hφ hacc (ix1 a) = ∑ b : Fin B, x (ix2 a b) := by
  refine (Ideal.multiReduction_add_single x _ h hφ hacc (ix1 a)).trans ?_
  exact Finset.sum_congr rfl fun b _ => congrArg x (lift_ix1 h a b)

/-- (3) The host's row maximum: a one-operand reduction by `maximumf` along axis 1 from the scalar `v`, read at row
    `a`, is the maximum of `v` and the supremum of that row. -/
theorem hostReduce_maximumf_row {A B : Nat} (x : (⟨2, ![A, B]⟩ : Shape).Idx → EReal)
    (v : (⟨0, ![]⟩ : Shape).Idx → EReal) (h' : (⟨2, ![A, B]⟩ : Shape).ReducesTo [1] ⟨1, ![A]⟩)
    (hu : 0 < (⟨0, ![]⟩ : Shape).numel) (a : Fin A) :
    Host.reduce (FloatOps.maximumf (F := Ideal) (φ := .f32)) x v h' hu (ix1 a)
      = max (v ix0) (Finset.univ.sup fun b : Fin B => x (ix2 a b)) := by
  have h := reduces_of_reducesTo h'
  refine (Host.reduce_eq_fold_single (FloatOps.maximumf (F := Ideal) (φ := .f32)) x v h' h hu (ix1 a)).trans ?_
  refine (fold_max_eq_max_sup _ _ _).trans ?_
  rw [eq_ix0 (Shape.Idx.first hu)]
  exact congrArg (fun f => max (v ix0) (Finset.univ.sup f)) (funext fun b : Fin B => congrArg x (lift_ix1 h a b))

/-- (4) The host's row sum: a one-operand reduction by addition along axis 1 from the scalar `v`, read at row `a`,
    is `v` plus the sum of that row. -/
theorem hostReduceAdd_row {A B : Nat} (x : FVec Ideal ⟨2, ![A, B]⟩ .f32)
    (v : (⟨0, ![]⟩ : Shape).Idx → EReal) (h' : (⟨2, ![A, B]⟩ : Shape).ReducesTo [1] ⟨1, ![A]⟩)
    (hu : 0 < (⟨0, ![]⟩ : Shape).numel) (a : Fin A) :
    Host.reduceAdd (F := Ideal) (φ := .f32) x v h' hu (ix1 a) = v ix0 + ∑ b : Fin B, x (ix2 a b) := by
  have h := reduces_of_reducesTo h'
  refine (Ideal.hostReduceAdd_single h' h x (v (Shape.Idx.first hu)) (ix1 a)).trans ?_
  rw [eq_ix0 (Shape.Idx.first hu)]
  exact congrArg (fun r => v ix0 + r) (Finset.sum_congr rfl fun b _ => congrArg x (lift_ix1 h a b))

end Cert.LibRowReduce

end
-- ==== Proof.RegionHead.lean ====
/-
  The classifier head: the last region of the program, read as one function of the three arrays it loads.

  The region's grid has a single point, and each of its four windows is a whole array: the pooled rows `p` ([512, 128]),
  the weights `w` ([128, 10]), the bias laid as one row `b` ([1, 10]) and the output ([512, 10]).  So the one block of
  every window is the array itself, and what the point writes back is the whole output.

  The body computes, for row `i` and column `j`,
      z(i, j) = ∑ k < 128, p(i, k) · w(k, j) + b(0, j)            (the scores),
      r(i)    = max (-∞) (sup over j of z(i, j))                  (the row maximum),
      s(i, j) = z(i, j) - r(i)                                    (the row less its maximum),
      out(i, j) = s(i, j) - log (∑ j' < 10, exp (s(i, j'))).
  The specification writes the same four stages with the host's operations.  At the extended reals the two agree entry
  by entry: a change of float format is the identity; a product accumulated from zero and the host's general product are
  both the sum over `k`; a reduction by maximum started from minus infinity is the supremum of the row, and taking the
  maximum with minus infinity again (once on the kernel's side, twice on the host's) changes nothing, since minus
  infinity is the bottom element; a sum started from the zero word is the row's sum (`0 + x = x`); the exponential and
  the logarithm are one function on either side; and the "keep the reduced axis" casts and broadcasts only re-index.
  Each stage is proved equal to its counterpart as a function of an arbitrary operand, so the stages compose.
-/
import proofs.«157506_j28080496181754_1_alg».proof.Proof.Gen.KernelIdeal.Frame
import proofs.«157506_j28080496181754_1_alg».proof.Proof.Spec
import proofs.«157506_j28080496181754_1_alg».proof.Proof.LibMatmul
import proofs.«157506_j28080496181754_1_alg».proof.Proof.LibKeepdims
import proofs.«157506_j28080496181754_1_alg».proof.Proof.LibRowReduce
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

set_option maxRecDepth 16384
open scoped BigOperators
noncomputable section
namespace Cert.KernelIdeal.Regions.Head
open Cert.KernelIdeal Cert.KernelIdeal.Gen Idealize.ShloMosaic Idealize.ShloMosaic.TcCoe Idealize.SL.Sem
open Idealize.ShloMosaic.ValueIdx
variable [Cert.ReferenceIdeal.Facts]

/-! ## Layout operations of the host, read at an index -/

section HostLayout
variable {α : Type}

/-- A scalar broadcast to a vector of 512 entries reads the scalar everywhere. -/
theorem bcast_scalar_512 (v : (⟨0, ![]⟩ : Shape).Idx → α) (h : (⟨0, ![]⟩ : Shape).BroadcastsInDim ⟨1, ![512]⟩ ![]) (i : Fin 512) :
    broadcastInDim ⟨1, ![512]⟩ ![] h v (ix1 i) = v ix0 :=
  broadcastInDim_apply ![] h v (ix1 i) ix0 (fun ax => ax.elim0)

/-- A vector of 512 entries laid as a column reads, at `(i, u)`, its entry `i`. -/
theorem bcast_col_512 (v : (⟨1, ![512]⟩ : Shape).Idx → α) (h : (⟨1, ![512]⟩ : Shape).BroadcastsInDim ⟨2, ![512, 1]⟩ ![0]) (i : Fin 512) (u : Fin 1) :
    broadcastInDim ⟨2, ![512, 1]⟩ ![0] h v (ix2 i u) = v (ix1 i) :=
  broadcastInDim_apply ![0] h v (ix2 i u) (ix1 i) (fun ax => match ax with
    | ⟨0, _⟩ => rfl)

/-- A column of 512 entries copied along 10 columns reads, at `(i, j)`, the column's entry of row `i`. -/
theorem bcast_col_rows (v : (⟨2, ![512, 1]⟩ : Shape).Idx → α) (h : (⟨2, ![512, 1]⟩ : Shape).BroadcastsInDim ⟨2, ![512, 10]⟩ ![0, 1]) (i : Fin 512) (j : Fin 10) :
    broadcastInDim ⟨2, ![512, 10]⟩ ![0, 1] h v (ix2 i j) = v (ix2 i (0 : Fin 1)) :=
  broadcastInDim_apply ![0, 1] h v (ix2 i j) (ix2 i (0 : Fin 1)) (fun ax => match ax with
    | ⟨0, _⟩ => rfl
    | ⟨1, _⟩ => rfl)

/-- A row of 10 entries copied along 512 rows reads, at `(i, j)`, the row's entry `j`. -/
theorem bcast_row_cols (v : (⟨2, ![1, 10]⟩ : Shape).Idx → α) (h : (⟨2, ![1, 10]⟩ : Shape).BroadcastsInDim ⟨2, ![512, 10]⟩ ![0, 1]) (i : Fin 512) (j : Fin 10) :
    broadcastInDim ⟨2, ![512, 10]⟩ ![0, 1] h v (ix2 i j) = v (ix2 (0 : Fin 1) j) :=
  broadcastInDim_apply ![0, 1] h v (ix2 i j) (ix2 (0 : Fin 1) j) (fun ax => match ax with
    | ⟨0, _⟩ => rfl
    | ⟨1, _⟩ => rfl)

end HostLayout

/-! ## The kernel's body, cut into its four stages -/

/-- The scores as the kernel computes them: the matrix unit's product into a zero accumulator, plus the bias row
    copied along the rows. -/
def scoresK (x0 : FVec Ideal S512x128 .f32) (x1 : FVec Ideal S128x10 .f32) (x2 : FVec Ideal S1x10 .f32) : FVec Ideal S512x10 .f32 :=
  addf (matmul dot_S512x128_S128x10_S512x10_1_0_0_1_n_n none
      (truncf .bf16 (shapeCast S512x128 x0 Facts₀.shapeCasts_S512x128_S512x128) Facts₀.bitsLt_bf16_f32)
      (truncf .bf16 x1 Facts₀.bitsLt_bf16_f32) (constant (F := Ideal) S512x10 .f32 0x00000000#32))
    (broadcastTo S512x10 (shapeCast S1x10 x2 Facts₀.shapeCasts_S1x10_S1x10) Facts₀.broadcasts_S1x10_S512x10)

/-- The kernel's row maximum: the reduction along the row from minus infinity, then the maximum with minus infinity. -/
def rowMaxK (z : FVec Ideal S512x10 .f32) : FVec Ideal S512 .f32 :=
  maximumf (broadcast S512 (Scalar.ofBits (F := Ideal) .f32 0xFF800000#32))
    (multiReduction (F := Ideal) .maximumf [1] S512 z 0xFF800000#32 Facts₀.reduces_S512x10_S512 (.inl rfl) rfl)

/-- The kernel's rows less their maxima. -/
def shiftedK (z : FVec Ideal S512x10 .f32) : FVec Ideal S512x10 .f32 :=
  subf z (broadcastTo S512x10 (shapeCast S512x1 (rowMaxK z) Facts₀.shapeCasts_S512_S512x1) Facts₀.broadcasts_S512x1_S512x10)

/-- The kernel's last stage: each row less the logarithm of the sum of its exponentials. -/
def lseK (s : FVec Ideal S512x10 .f32) : FVec Ideal S512x10 .f32 :=
  subf s (broadcastTo S512x10 (log (shapeCast S512x1 (multiReduction (F := Ideal) .add [1] S512 (exp s) 0x00000000#32 Facts₀.reduces_S512x10_S512 (.inl rfl) rfl) Facts₀.shapeCasts_S512_S512x1)) Facts₀.broadcasts_S512x1_S512x10)

/-- The body's stored value is the four stages composed. -/
theorem pay_split (x0 : FVec Ideal S512x128 .f32) (x1 : FVec Ideal S128x10 .f32) (x2 : FVec Ideal S1x10 .f32) :
    k6_pay1 x0 x1 x2 = lseK (shiftedK (scoresK x0 x1 x2)) := rfl

/-! ## The specification, cut the same way -/

/-- The host's row maximum: the reduction along the row from minus infinity, then the maximum with minus infinity. -/
def rowMaxH (z : FVec Ideal Cert.ReferenceIdeal.S512x10 .f32) : FVec Ideal Cert.ReferenceIdeal.S512 .f32 :=
  maximumf (broadcastInDim Cert.ReferenceIdeal.S512 ![] Cert.ReferenceIdeal.Facts₀.bcast_S_S512 (constant (F := Ideal) Cert.ReferenceIdeal.S_ .f32 0xFF800000#32))
    (Host.reduce (FloatOps.maximumf (F := Ideal) (φ := .f32)) z (constant (F := Ideal) Cert.ReferenceIdeal.S_ .f32 0xFF800000#32) Cert.ReferenceIdeal.Facts₀.reducesTo_S512x10_S512_d1 Cert.ReferenceIdeal.Facts₀.h_S_)

/-- The host's rows less their maxima. -/
def shiftedH (z : FVec Ideal Cert.ReferenceIdeal.S512x10 .f32) : FVec Ideal Cert.ReferenceIdeal.S512x10 .f32 :=
  subf z (broadcastInDim Cert.ReferenceIdeal.S512x10 ![0, 1] Cert.ReferenceIdeal.Facts₀.bcast_S512x1_S512x10_0_1 (broadcastInDim Cert.ReferenceIdeal.S512x1 ![0] Cert.ReferenceIdeal.Facts₀.bcast_S512_S512x1_0 (rowMaxH z)))

theorem shifted_split (z : FVec Ideal Cert.ReferenceIdeal.S512x10 .f32) :
    Cert.Gcn.shifted (F := Ideal) z = shiftedH z := rfl

/-- The host's last stage. -/
def lseH (s : FVec Ideal Cert.ReferenceIdeal.S512x10 .f32) : FVec Ideal Cert.ReferenceIdeal.S512x10 .f32 :=
  subf s (broadcastInDim Cert.ReferenceIdeal.S512x10 ![0, 1] Cert.ReferenceIdeal.Facts₀.bcast_S512x1_S512x10_0_1 (Host.log (broadcastInDim Cert.ReferenceIdeal.S512x1 ![0] Cert.ReferenceIdeal.Facts₀.bcast_S512_S512x1_0 (Host.reduceAdd (F := Ideal) (Host.exp s) (constant (F := Ideal) Cert.ReferenceIdeal.S_ .f32 0x00000000#32) Cert.ReferenceIdeal.Facts₀.reducesTo_S512x10_S512_d1 Cert.ReferenceIdeal.Facts₀.h_S_))))

theorem logSoftmax_split (z : FVec Ideal Cert.ReferenceIdeal.S512x10 .f32) :
    Cert.Gcn.logSoftmax (F := Ideal) z = lseH (shiftedH z) := rfl

/-! ## (1) The scores at an entry -/

theorem scoresK_apply (x0 : FVec Ideal S512x128 .f32) (x1 : FVec Ideal S128x10 .f32) (x2 : FVec Ideal S1x10 .f32) (i : Fin 512) (j : Fin 10) :
    scoresK x0 x1 x2 (ix2 i j) = (∑ k : Fin 128, x0 (ix2 i k) * x1 (ix2 k j)) + x2 (ix2 (0 : Fin 1) j) := by
  have hm : matmul (F := Ideal) dot_S512x128_S128x10_S512x10_1_0_0_1_n_n none
      (truncf .bf16 (shapeCast S512x128 x0 Facts₀.shapeCasts_S512x128_S512x128) Facts₀.bitsLt_bf16_f32)
      (truncf .bf16 x1 Facts₀.bitsLt_bf16_f32) (constant (F := Ideal) S512x10 .f32 0x00000000#32) (ix2 i j)
      = ∑ k : Fin 128, x0 (ix2 i k) * x1 (ix2 k j) := by
    refine (Cert.MatOps.matmul_plain_zero_apply (M := 512) (K := 128) (N := 10) none _ _ i j).trans ?_
    rw [shapeCast_self]
    rfl
  have hb : broadcastTo S512x10 (shapeCast S1x10 x2 Facts₀.shapeCasts_S1x10_S1x10) Facts₀.broadcasts_S1x10_S512x10 (ix2 i j) = x2 (ix2 (0 : Fin 1) j) := by
    rw [shapeCast_self]
    exact broadcastTo_1b_ab_apply x2 _ i j
  exact congrArg₂ (· + ·) hm hb

theorem logits2_apply (x0 : FVec Ideal S512x128 .f32) (x1 : FVec Ideal S128x10 .f32) (x2 : FVec Ideal S1x10 .f32) (i : Fin 512) (j : Fin 10) :
    Cert.Gcn.logits2 (F := Ideal) x0 x1 x2 (ix2 i j) = (∑ k : Fin 128, x0 (ix2 i k) * x1 (ix2 k j)) + x2 (ix2 (0 : Fin 1) j) := by
  have hm : Host.dotGeneral (F := Ideal) Cert.ReferenceIdeal.dot_S512x128_S128x10_S512x10_1_0_0_1_n_n none x0 x1 (ix2 i j)
      = ∑ k : Fin 128, x0 (ix2 i k) * x1 (ix2 k j) :=
    Cert.MatOps.dotGeneral_plain_apply (M := 512) (K := 128) (N := 10) none x0 x1 i j
  have hb : broadcastInDim Cert.ReferenceIdeal.S512x10 ![0, 1] Cert.ReferenceIdeal.Facts₀.bcast_S1x10_S512x10_0_1 x2 (ix2 i j) = x2 (ix2 (0 : Fin 1) j) :=
    bcast_row_cols x2 _ i j
  exact congrArg₂ (· + ·) hm hb

theorem scores_eq (x0 : FVec Ideal S512x128 .f32) (x1 : FVec Ideal S128x10 .f32) (x2 : FVec Ideal S1x10 .f32) :
    scoresK x0 x1 x2 = Cert.Gcn.logits2 (F := Ideal) x0 x1 x2 := by
  funext idx
  obtain ⟨i, j, rfl⟩ : ∃ (i : Fin 512) (j : Fin 10), idx = ix2 i j := ⟨idx 0, idx 1, eq_ix2 idx⟩
  exact (scoresK_apply x0 x1 x2 i j).trans (logits2_apply x0 x1 x2 i j).symm

/-! ## (2) The row maximum -/

/-- The kernel's row maximum at row `i` is the supremum of the row: the maximum with minus infinity changes nothing. -/
theorem rowMaxK_apply (z : FVec Ideal S512x10 .f32) (i : Fin 512) :
    rowMaxK z (ix1 i) = Finset.univ.sup fun b : Fin 10 => z (ix2 i b) := by
  have hr := Cert.LibRowReduce.multiReduction_maximumf_row (A := 512) (B := 10) z Facts₀.reduces_S512x10_S512 (.inl rfl) rfl i
  have hm : rowMaxK z (ix1 i) = max (Ideal.ofBits .f32 0xFF800000#32)
      (multiReduction (F := Ideal) .maximumf [1] S512 z 0xFF800000#32 Facts₀.reduces_S512x10_S512 (.inl rfl) rfl (ix1 i)) := rfl
  rw [hm, hr, Cert.LibRowReduce.ofBits_neg_inf_f32, max_bot_left]

/-- The host's row maximum at row `i` is the same supremum: minus infinity enters twice, as the reduction's initial
    value and in the maximum taken afterwards, and changes nothing either time. -/
theorem rowMaxH_apply (z : FVec Ideal Cert.ReferenceIdeal.S512x10 .f32) (i : Fin 512) :
    rowMaxH z (ix1 i) = Finset.univ.sup fun b : Fin 10 => z (ix2 i b) := by
  have hr := Cert.LibRowReduce.hostReduce_maximumf_row (A := 512) (B := 10) z (constant (F := Ideal) Cert.ReferenceIdeal.S_ .f32 0xFF800000#32)
    Cert.ReferenceIdeal.Facts₀.reducesTo_S512x10_S512_d1 Cert.ReferenceIdeal.Facts₀.h_S_ i
  have hc : broadcastInDim Cert.ReferenceIdeal.S512 ![] Cert.ReferenceIdeal.Facts₀.bcast_S_S512 (constant (F := Ideal) Cert.ReferenceIdeal.S_ .f32 0xFF800000#32) (ix1 i)
      = Ideal.ofBits .f32 0xFF800000#32 := bcast_scalar_512 _ _ i
  have hm : rowMaxH z (ix1 i) = max (broadcastInDim Cert.ReferenceIdeal.S512 ![] Cert.ReferenceIdeal.Facts₀.bcast_S_S512 (constant (F := Ideal) Cert.ReferenceIdeal.S_ .f32 0xFF800000#32) (ix1 i))
      (Host.reduce (FloatOps.maximumf (F := Ideal) (φ := .f32)) z (constant (F := Ideal) Cert.ReferenceIdeal.S_ .f32 0xFF800000#32) Cert.ReferenceIdeal.Facts₀.reducesTo_S512x10_S512_d1 Cert.ReferenceIdeal.Facts₀.h_S_ (ix1 i)) := rfl
  rw [hm, hr, hc]
  show max (Ideal.ofBits .f32 0xFF800000#32) (max (Ideal.ofBits .f32 0xFF800000#32) _) = _
  rw [Cert.LibRowReduce.ofBits_neg_inf_f32, max_bot_left, max_bot_left]

/-! ## (3) The rows less their maxima -/

theorem shiftedK_apply (z : FVec Ideal S512x10 .f32) (i : Fin 512) (j : Fin 10) :
    shiftedK z (ix2 i j) = z (ix2 i j) - Finset.univ.sup fun b : Fin 10 => z (ix2 i b) := by
  have h1 : broadcastTo S512x10 (shapeCast S512x1 (rowMaxK z) Facts₀.shapeCasts_S512_S512x1) Facts₀.broadcasts_S512x1_S512x10 (ix2 i j)
      = Finset.univ.sup fun b : Fin 10 => z (ix2 i b) :=
    (Keepdims.broadcastTo_a1_ab_apply _ _ i j 0).trans ((Keepdims.shapeCast_a_a1_apply _ _ i 0).trans (rowMaxK_apply z i))
  exact congrArg (fun r => z (ix2 i j) - r) h1

theorem shiftedH_apply (z : FVec Ideal Cert.ReferenceIdeal.S512x10 .f32) (i : Fin 512) (j : Fin 10) :
    shiftedH z (ix2 i j) = z (ix2 i j) - Finset.univ.sup fun b : Fin 10 => z (ix2 i b) := by
  have h1 : broadcastInDim Cert.ReferenceIdeal.S512x10 ![0, 1] Cert.ReferenceIdeal.Facts₀.bcast_S512x1_S512x10_0_1 (broadcastInDim Cert.ReferenceIdeal.S512x1 ![0] Cert.ReferenceIdeal.Facts₀.bcast_S512_S512x1_0 (rowMaxH z)) (ix2 i j)
      = Finset.univ.sup fun b : Fin 10 => z (ix2 i b) :=
    (bcast_col_rows _ _ i j).trans ((bcast_col_512 _ _ i 0).trans (rowMaxH_apply z i))
  exact congrArg (fun r => z (ix2 i j) - r) h1

theorem shifted_eq (z : FVec Ideal S512x10 .f32) : shiftedK z = shiftedH z := by
  funext idx
  obtain ⟨i, j, rfl⟩ : ∃ (i : Fin 512) (j : Fin 10), idx = ix2 i j := ⟨idx 0, idx 1, eq_ix2 idx⟩
  exact (shiftedK_apply z i j).trans (shiftedH_apply z i j).symm

/-! ## (4) The logarithm of a row's sum of exponentials, and (5) the result -/

theorem lseK_apply (s : FVec Ideal S512x10 .f32) (i : Fin 512) (j : Fin 10) :
    lseK s (ix2 i j) = s (ix2 i j) - Ideal.log (∑ b : Fin 10, Ideal.exp (s (ix2 i b))) := by
  have hr : multiReduction (F := Ideal) .add [1] S512 (exp s) 0x00000000#32 Facts₀.reduces_S512x10_S512 (.inl rfl) rfl (ix1 i)
      = ∑ b : Fin 10, Ideal.exp (s (ix2 i b)) :=
    Cert.LibRowReduce.multiReduction_add_row (A := 512) (B := 10) (exp s) Facts₀.reduces_S512x10_S512 (.inl rfl) rfl i
  have h1 : broadcastTo S512x10 (log (shapeCast S512x1 (multiReduction (F := Ideal) .add [1] S512 (exp s) 0x00000000#32 Facts₀.reduces_S512x10_S512 (.inl rfl) rfl) Facts₀.shapeCasts_S512_S512x1)) Facts₀.broadcasts_S512x1_S512x10 (ix2 i j)
      = Ideal.log (∑ b : Fin 10, Ideal.exp (s (ix2 i b))) :=
    (Keepdims.broadcastTo_a1_ab_apply _ _ i j 0).trans (congrArg Ideal.log ((Keepdims.shapeCast_a_a1_apply _ _ i 0).trans hr))
  exact congrArg (fun r => s (ix2 i j) - r) h1

theorem lseH_apply (s : FVec Ideal Cert.ReferenceIdeal.S512x10 .f32) (i : Fin 512) (j : Fin 10) :
    lseH s (ix2 i j) = s (ix2 i j) - Ideal.log (∑ b : Fin 10, Ideal.exp (s (ix2 i b))) := by
  have hr : Host.reduceAdd (F := Ideal) (Host.exp s) (constant (F := Ideal) Cert.ReferenceIdeal.S_ .f32 0x00000000#32) Cert.ReferenceIdeal.Facts₀.reducesTo_S512x10_S512_d1 Cert.ReferenceIdeal.Facts₀.h_S_ (ix1 i)
      = ∑ b : Fin 10, Ideal.exp (s (ix2 i b)) := by
    refine (Cert.LibRowReduce.hostReduceAdd_row (A := 512) (B := 10) (Host.exp s) _ Cert.ReferenceIdeal.Facts₀.reducesTo_S512x10_S512_d1 Cert.ReferenceIdeal.Facts₀.h_S_ i).trans ?_
    show Ideal.ofBits .f32 0x00000000#32 + _ = _
    rw [Ideal.ofBits_zero_f32, zero_add]
    rfl
  have h1 : broadcastInDim Cert.ReferenceIdeal.S512x10 ![0, 1] Cert.ReferenceIdeal.Facts₀.bcast_S512x1_S512x10_0_1 (Host.log (broadcastInDim Cert.ReferenceIdeal.S512x1 ![0] Cert.ReferenceIdeal.Facts₀.bcast_S512_S512x1_0 (Host.reduceAdd (F := Ideal) (Host.exp s) (constant (F := Ideal) Cert.ReferenceIdeal.S_ .f32 0x00000000#32) Cert.ReferenceIdeal.Facts₀.reducesTo_S512x10_S512_d1 Cert.ReferenceIdeal.Facts₀.h_S_))) (ix2 i j)
      = Ideal.log (∑ b : Fin 10, Ideal.exp (s (ix2 i b))) :=
    (bcast_col_rows _ _ i j).trans (congrArg Ideal.log ((bcast_col_512 _ _ i 0).trans hr))
  exact congrArg (fun r => s (ix2 i j) - r) h1

theorem lse_eq (s : FVec Ideal S512x10 .f32) : lseK s = lseH s := by
  funext idx
  obtain ⟨i, j, rfl⟩ : ∃ (i : Fin 512) (j : Fin 10), idx = ix2 i j := ⟨idx 0, idx 1, eq_ix2 idx⟩
  exact (lseK_apply s i j).trans (lseH_apply s i j).symm

/-- The body's stored value is the specification's function of the three blocks it loads. -/
theorem payload_eq (x0 : FVec Ideal S512x128 .f32) (x1 : FVec Ideal S128x10 .f32) (x2 : FVec Ideal S1x10 .f32) :
    k6_pay1 (F := Ideal) x0 x1 x2 = (Cert.Gcn.logSoftmax (F := Ideal) (Cert.Gcn.logits2 (F := Ideal) x0 x1 x2) : FVec Ideal S512x10 .f32) := by
  rw [pay_split, scores_eq, shifted_eq, lse_eq]
  rfl

/-! ## The region: one grid point whose blocks are the whole arrays -/

variable (V : (c : Dev nD) → (b : Ref sig .tc) → Buf (Elt Ideal) ((c : Thread nD τ).loc b)) (c : Dev nD)

theorem origin2 : (![0, 0] : Fin 2 → Nat) = fun _ => 0 := funext fun a => by fin_cases a <;> rfl

/-- Every window's block index is zero on both axes at the grid's one point. -/
theorem block_index_zero : ∀ t : Fin cfg6.N,
    win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

/-- The pooled rows' block is the whole array. -/
theorem block_pooled (t : Fin cfg6.N) : (iblk6 (F := Ideal) V c 0 t : FVec Ideal S512x128 .f32) = V c main_v91 := by
  obtain ⟨e0, e1, -⟩ := block_index_zero t
  funext y
  show V c main_v91 (((cfg6.win 0).blk t).view.emb y) = V c main_v91 y
  refine congrArg (V c main_v91) (funext fun a => Fin.ext ?_)
  match a with
  | ⟨0, _⟩ => show win6_0.index t (0 : Fin 2) * 512 + 1 * (y 0).val = (y 0).val; omega
  | ⟨1, _⟩ => show win6_0.index t (1 : Fin 2) * 128 + 1 * (y 1).val = (y 1).val; omega

/-- The weights' block is the whole array. -/
theorem block_weights (t : Fin cfg6.N) : (iblk6 (F := Ideal) V c 1 t : FVec Ideal S128x10 .f32) = V c main_arg9 := by
  obtain ⟨-, -, e0, e1, -⟩ := block_index_zero t
  funext y
  show V c main_arg9 (((cfg6.win 1).blk t).view.emb y) = V c main_arg9 y
  refine congrArg (V c main_arg9) (funext fun a => Fin.ext ?_)
  match a with
  | ⟨0, _⟩ => show win6_1.index t (0 : Fin 2) * 128 + 1 * (y 0).val = (y 0).val; omega
  | ⟨1, _⟩ => show win6_1.index t (1 : Fin 2) * 10 + 1 * (y 1).val = (y 1).val; omega

/-- The bias row's block is the whole array. -/
theorem block_bias (t : Fin cfg6.N) : (iblk6 (F := Ideal) V c 2 t : FVec Ideal S1x10 .f32) = V c main_v92 := by
  obtain ⟨-, -, -, -, e0, e1, -⟩ := block_index_zero t
  funext y
  show V c main_v92 (((cfg6.win 2).blk t).view.emb y) = V c main_v92 y
  refine congrArg (V c main_v92) (funext fun a => Fin.ext ?_)
  match a with
  | ⟨0, _⟩ => show win6_2.index t (0 : Fin 2) * 1 + 1 * (y 0).val = (y 0).val; omega
  | ⟨1, _⟩ => show win6_2.index t (1 : Fin 2) * 10 + 1 * (y 1).val = (y 1).val; omega

/-- What the one point writes back is the whole of the specification's array. -/
theorem flushed_head (t : Fin cfg6.N) :
    (dat6 (F := Ideal) V c).flushed 3 t = ((cfg6.win 3).blk t).view.read (Elt Ideal)
      (Cert.Gcn.logSoftmax (F := Ideal) (Cert.Gcn.logits2 (F := Ideal) (V c main_v91) (V c main_arg9) (V c main_v92))) := by
  show (cfg6.win 3).cut (grid6.coords t) ((dat6 V c).after 3 t) = _
  rw [after6_3]
  unfold out6_3
  rw [View.canon_unit_zero origin2]
  simp only [View.ld_unit_zero (S := S512x128) origin2, View.ld_unit_zero (S := S128x10) origin2, View.ld_unit_zero (S := S1x10) origin2]
  rw [payload_eq, block_pooled, block_weights, block_bias]
  obtain ⟨-, -, -, -, -, -, e0, e1⟩ := block_index_zero t
  funext j
  have hj : ((cfg6.win 3).blk t).view.emb j = j := by
    funext a
    refine Fin.ext ?_
    match a with
    | ⟨0, _⟩ => show win6_3.index t (0 : Fin 2) * 512 + 1 * (j 0).val = (j 0).val; omega
    | ⟨1, _⟩ => show win6_3.index t (1 : Fin 2) * 10 + 1 * (j 1).val = (j 1).val; omega
  show Cert.Gcn.logSoftmax (F := Ideal) (Cert.Gcn.logits2 (F := Ideal) (V c main_v91) (V c main_arg9) (V c main_v92)) j
    = Cert.Gcn.logSoftmax (F := Ideal) (Cert.Gcn.logits2 (F := Ideal) (V c main_v91) (V c main_arg9) (V c main_v92)) (((cfg6.win 3).blk t).view.emb j)
  rw [hj]

/-- An index of the scores' array is in the point's block iff each coordinate is in the block's range on its axis. -/
theorem mem_block_head (t : Fin cfg6.N) (i : S512x10.Idx) :
    i ∈ ((cfg6.win 3).blk t).view.set ↔ ∀ a : Fin 2, win6_3.index t a * S512x10.size a ≤ (i a).val ∧ (i a).val < win6_3.index t a * S512x10.size a + S512x10.size a := by
  show i ∈ ((View.whole main_v93).slice (win6_3.rect t)).set ↔ _
  rw [View.set_slice_whole, Rect.mem_set_unit]
  exact Iff.rfl

/-- The one point's block covers the scores' array. -/
theorem cover_head (i : S512x10.Idx) : ∃ t : Fin cfg6.N, (cfg6.win 3).flush t = true ∧ i ∈ ((cfg6.win 3).blk t).view.set := by
  obtain ⟨-, -, -, -, -, -, e0, e1⟩ := block_index_zero t6_0
  have hi0 : (i 0).val < 512 := (i 0).isLt
  have hi1 : (i 1).val < 10 := (i 1).isLt
  refine ⟨t6_0, flush6_3 t6_0, ?_⟩
  rw [mem_block_head]
  intro a
  match a with
  | ⟨0, _⟩ => show win6_3.index t6_0 (0 : Fin 2) * 512 ≤ (i 0).val ∧ (i 0).val < win6_3.index t6_0 (0 : Fin 2) * 512 + 512; omega
  | ⟨1, _⟩ => show win6_3.index t6_0 (1 : Fin 2) * 10 ≤ (i 1).val ∧ (i 1).val < win6_3.index t6_0 (1 : Fin 2) * 10 + 10; omega

end Cert.KernelIdeal.Regions.Head

namespace Cert.KernelIdeal.Regions
open Cert.KernelIdeal Cert.KernelIdeal.Gen Idealize.ShloMosaic Idealize.ShloMosaic.TcCoe Idealize.SL.Sem
variable [Cert.ReferenceIdeal.Facts]
variable (V : (c : Dev nD) → (b : Ref sig .tc) → Buf (Elt Ideal) ((c : Thread nD τ).loc b)) (c : Dev nD)

/-- After the region the output array holds the specification's function of the three arrays the region read. -/
theorem head6 : (dat6 (F := Ideal) V c).arrAt 3 cfg6.N = Cert.Gcn.logSoftmax (F := Ideal) (Cert.Gcn.logits2 (F := Ideal) (V c main_v91) (V c main_arg9) (V c main_v92)) :=
  (dat6 (F := Ideal) V c).arrAt_eq_of_cover 3 _ (fun t _ => Head.flushed_head V c t) Head.cover_head

end Cert.KernelIdeal.Regions
end
-- ==== Proof.lean ====
/-
  A three-layer graph convolution network with a mean pool and a ten-way log-softmax head, as a tiled kernel program and
  as a plain array program: the two compute the same function of their arguments on the extended reals.

  The kernel program runs seven kernels among its host operations: three matrix products of the node features with a
  weight matrix, ten blocks of 5000 rows each; three "add the bias, clamp at zero" passes over the same blocks; and one
  kernel for the last product, the bias and the log-softmax over the ten scores of each of the 512 graphs.  Everything
  else — the edge list with its self loops, the degree weights, the gather, scale and scatter-add along the edges, the
  per-graph mean — is the same sequence of host operations in both programs.  So the proof reads the kernel program
  segment by segment (module Chain), with each kernel's output array as one function of the arrays it finds (modules
  RegionDense, RegionBias, RegionHead): a matrix product accumulated into zero is the host's product, both the sum over
  the 128 contracted columns; a bias reshaped to one row is the bias broadcast to one row; the kernel's row maximum and
  row sum are the host's, started from minus infinity and from zero.  A change of float format is the identity on the
  extended reals, so the rounding of the matrix operands to bf16 disappears.  No law used needs finite inputs.
  The reference's result is the same specification written out (module RefSpec over the reference's run).
  The three frames are the programs' runs with the results dropped; the idealization rewrote nothing.
-/
import proofs.«157506_j28080496181754_1_alg».proof.Defs
import proofs.«157506_j28080496181754_1_alg».proof.Proof.Gen.Kernel
import proofs.«157506_j28080496181754_1_alg».proof.Proof.Gen.Kernel.Skeleton
import proofs.«157506_j28080496181754_1_alg».proof.Proof.Gen.Kernel.Launch
import proofs.«157506_j28080496181754_1_alg».proof.Proof.Gen.Kernel.Points
import proofs.«157506_j28080496181754_1_alg».proof.Proof.Gen.Kernel.Frame
import proofs.«157506_j28080496181754_1_alg».proof.Proof.Gen.KernelIdeal
import proofs.«157506_j28080496181754_1_alg».proof.Proof.Gen.KernelIdeal.Skeleton
import proofs.«157506_j28080496181754_1_alg».proof.Proof.Gen.KernelIdeal.Launch
import proofs.«157506_j28080496181754_1_alg».proof.Proof.Gen.KernelIdeal.Points
import proofs.«157506_j28080496181754_1_alg».proof.Proof.Gen.KernelIdeal.Frame
import proofs.«157506_j28080496181754_1_alg».proof.Proof.Gen.ReferenceIdeal
import proofs.«157506_j28080496181754_1_alg».proof.Proof.Gen.Pre_finite_inputs
import proofs.«157506_j28080496181754_1_alg».proof.Proof.RefRun
import proofs.«157506_j28080496181754_1_alg».proof.Proof.RefSpec
import proofs.«157506_j28080496181754_1_alg».proof.Proof.Named
import proofs.«157506_j28080496181754_1_alg».proof.Proof.Chain
import proofs.«157506_j28080496181754_1_alg».proof.Proof.RegionDense
import proofs.«157506_j28080496181754_1_alg».proof.Proof.RegionBias
import proofs.«157506_j28080496181754_1_alg».proof.Proof.RegionHead
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the specification's network of the arguments in their result buffer. -/
theorem algebraic : Cert.algebraic_KernelIdeal_ReferenceIdeal := by
  intro m ρ m' ρ' _ hagree
  refine ⟨fun c => Cert.Gcn.net (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Chain.kernel_value (F := Ideal) m ρ c
          Cert.KernelIdeal.Regions.dense0 Cert.KernelIdeal.Regions.bias1 Cert.KernelIdeal.Regions.dense2
          Cert.KernelIdeal.Regions.bias3 Cert.KernelIdeal.Regions.dense4 Cert.KernelIdeal.Regions.bias5
          Cert.KernelIdeal.Regions.head6), (h c).2⟩)
      (Cert.KernelIdeal.Named.run_named (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10⟩ := hagree c
    rw [Cert.ReferenceIdeal.RefValue.result_eq, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
